-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x128 : Shape := ⟨2, ![50000, 128]⟩
abbrev S500x128 : Shape := ⟨2, ![500, 128]⟩
abbrev S32x3 : Shape := ⟨2, ![32, 3]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S500x128 : S_.BroadcastsInDim S500x128 (![] : Fin 0 → Fin S500x128.rank)
  reducesTo_S500x128_S_d0_1 : S500x128.ReducesTo [0, 1] S_

variable [Facts]

def fn_part1 {F : FTy → Type} [FloatOps F] (main_v13 : IVec S_ 1) (main_v16 : IVec S500x128 1) : IVec S_ 1 :=
  let main_c_5 : IVec S_ 1 := constantI S_ 1 1#1
  let main_v17 : IVec S_ 1 := (fun x v => Host.reduce IntOp.andi x v reducesTo_S500x128_S_d0_1 h_S_) main_v16 main_c_5
  let main_v18 : IVec S_ 1 := andi main_v13 main_v17
  main_v18

def fn {F : FTy → Type} [FloatOps F] (main_arg0 : FVec F S50000x256 .f32) (main_arg1 : FVec F S50000x128 .f32) (main_arg2 : FVec F S500x128 .f32) (main_arg3 : FVec F S500x128 .f32) (main_arg4 : IVec S32x3 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S500x128 .f32 := Host.absf main_arg2
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S500x128 .f32 := Host.absf main_arg3
  let main_cst_4 : FVec F S_ .f32 := constant S_ .f32 0x7F800000#32
  let main_v15 : FVec F S500x128 .f32 := broadcastInDim S500x128 ![] bcast_S_S500x128 main_cst_4
  let main_v16 : IVec S500x128 1 := cmpf .olt main_v14 main_v15
  fn_part1 (F := F) main_v13 main_v16
-- ==== Kernel.lean ====
abbrev S50000x256 : Shape := ⟨2, ![50000, 256]⟩
abbrev S50000x128 : Shape := ⟨2, ![50000, 128]⟩
abbrev S500x128 : Shape := ⟨2, ![500, 128]⟩
abbrev S32x3 : Shape := ⟨2, ![32, 3]⟩
abbrev S32x1 : Shape := ⟨2, ![32, 1]⟩
abbrev S32 : Shape := ⟨1, ![32]⟩
abbrev S_ : Shape := ⟨0, ![]⟩
abbrev S32x256 : Shape := ⟨2, ![32, 256]⟩
abbrev S32x128 : Shape := ⟨2, ![32, 128]⟩
abbrev S32x50000 : Shape := ⟨2, ![32, 50000]⟩
abbrev S1024x256 : Shape := ⟨2, ![1024, 256]⟩
abbrev S1024x128 : Shape := ⟨2, ![1024, 128]⟩
abbrev S32x1024 : Shape := ⟨2, ![32, 1024]⟩
abbrev S1024 : Shape := ⟨1, ![1024]⟩
abbrev S1024x1 : Shape := ⟨2, ![1024, 1]⟩
abbrev S1x1024 : Shape := ⟨2, ![1, 1024]⟩
abbrev S1x128 : Shape := ⟨2, ![1, 128]⟩
abbrev S128 : Shape := ⟨1, ![128]⟩
abbrev S1x1 : Shape := ⟨2, ![1, 1]⟩
abbrev S1 : Shape := ⟨1, ![1]⟩

abbrev nBuf : Space → Nat
  | .hbm => 88
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S50000x128, .f32⟩
  | .hbm, ⟨2, _⟩ => ⟨S500x128, .f32⟩
  | .hbm, ⟨3, _⟩ => ⟨S500x128, .f32⟩
  | .hbm, ⟨4, _⟩ => ⟨S32x3, .i32⟩
  | .hbm, ⟨5, _⟩ => ⟨S32x1, .i32⟩
  | .hbm, ⟨6, _⟩ => ⟨S32, .i32⟩
  | .hbm, ⟨7, _⟩ => ⟨S32x1, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i1⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S32x1, .i32⟩
  | .hbm, ⟨17, _⟩ => ⟨S32x256, .f32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S32x1, .i32⟩
  | .hbm, ⟨26, _⟩ => ⟨S32x128, .f32⟩
  | .hbm, ⟨27, _⟩ => ⟨S_, .f32⟩
  | .hbm, ⟨28, _⟩ => ⟨S32x128, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S32x128, .i1⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S32x128, .f32⟩
  | .hbm, ⟨37, _⟩ => ⟨S32x128, .f32⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S_, .i32⟩
  | .hbm, ⟨42, _⟩ => ⟨S32, .i32⟩
  | .hbm, ⟨43, _⟩ => ⟨S32, .i1⟩
  | .hbm, ⟨44, _⟩ => ⟨S_, .i32⟩
  | .hbm, ⟨45, _⟩ => ⟨S32, .i32⟩
  | .hbm, ⟨46, _⟩ => ⟨S32, .i32⟩
  | .hbm, ⟨47, _⟩ => ⟨S32, .i32⟩
  | .hbm, ⟨48, _⟩ => ⟨S32x1, .i32⟩
  | .hbm, ⟨49, _⟩ => ⟨S32x128, .f32⟩
  | .hbm, ⟨50, _⟩ => ⟨S_, .i32⟩
  | .hbm, ⟨51, _⟩ => ⟨S32, .i32⟩
  | .hbm, ⟨52, _⟩ => ⟨S32, .i1⟩
  | .hbm, ⟨53, _⟩ => ⟨S_, .i32⟩
  | .hbm, ⟨54, _⟩ => ⟨S32, .i32⟩
  | .hbm, ⟨55, _⟩ => ⟨S32, .i32⟩
  | .hbm, ⟨56, _⟩ => ⟨S32, .i32⟩
  | .hbm, ⟨57, _⟩ => ⟨S32x1, .i32⟩
  | .hbm, ⟨58, _⟩ => ⟨S32x128, .f32⟩
  | .hbm, ⟨59, _⟩ => ⟨S_, .f32⟩
  | .hbm, ⟨60, _⟩ => ⟨S32x128, .f32⟩
  | .hbm, ⟨61, _⟩ => ⟨S32x128, .f32⟩
  | .hbm, ⟨62, _⟩ => ⟨S32x128, .f32⟩
  | .hbm, ⟨63, _⟩ => ⟨S32x128, .f32⟩
  | .hbm, ⟨64, _⟩ => ⟨S32x128, .i1⟩
  | .hbm, ⟨65, _⟩ => ⟨S32x128, .f32⟩
  | .hbm, ⟨66, _⟩ => ⟨S32x128, .f32⟩
  | .hbm, ⟨67, _⟩ => ⟨S32x128, .f32⟩
  | .hbm, ⟨68, _⟩ => ⟨S32x128, .f32⟩
  | .hbm, ⟨69, _⟩ => ⟨S32x128, .f32⟩
  | .hbm, ⟨70, _⟩ => ⟨S32x128, .f32⟩
  | .hbm, ⟨71, _⟩ => ⟨S32x128, .f32⟩
  | .hbm, ⟨72, _⟩ => ⟨S32x128, .f32⟩
  | .hbm, ⟨73, _⟩ => ⟨S32x128, .f32⟩
  | .hbm, ⟨74, _⟩ => ⟨S32x128, .f32⟩
  | .hbm, ⟨75, _⟩ => ⟨S32x128, .f32⟩
  | .hbm, ⟨76, _⟩ => ⟨S32x128, .f32⟩
  | .hbm, ⟨77, _⟩ => ⟨S32x128, .f32⟩
  | .hbm, ⟨78, _⟩ => ⟨S32x128, .f32⟩
  | .hbm, ⟨79, _⟩ => ⟨S32x128, .f32⟩
  | .hbm, ⟨80, _⟩ => ⟨S32x128, .f32⟩
  | .hbm, ⟨81, _⟩ => ⟨S32x128, .f32⟩
  | .hbm, ⟨82, _⟩ => ⟨S32x128, .f32⟩
  | .hbm, ⟨83, _⟩ => ⟨S32x128, .f32⟩
  | .hbm, ⟨84, _⟩ => ⟨S_, .f32⟩
  | .hbm, ⟨85, _⟩ => ⟨S32, .f32⟩
  | .hbm, ⟨86, _⟩ => ⟨S32x1, .f32⟩
  | .hbm, ⟨87, _⟩ => ⟨S32x50000, .f32⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S32x128, .f32⟩
  | .local _ .vmem, ⟨5, _⟩ => ⟨S32x128, .f32⟩
  | .local _ .vmem, ⟨6, _⟩ => ⟨S32x1, .f32⟩
  | .local _ .vmem, ⟨7, _⟩ => ⟨S32x1024, .f32⟩
  | .local _ .vmem, ⟨8, _⟩ => ⟨S32x1024, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![49], ![false]⟩

@[reducible] def k0_t1_loop : Scf.Loop 32 :=
  let c0_i32 : BitVec 32 := 0#32
  let c32_i32 : BitVec 32 := 32#32
  let v21 : BitVec 32 := Scalar.addi c0_i32 c32_i32
  let c1_i32 : BitVec 32 := 1#32
  ⟨c0_i32, v21, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let v22 : Index := Scalar.indexCast arg7
  let c0_6 : Index := 0#32
  ![v22.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let v28 : Index := Scalar.indexCast arg7
  let c0_8 : Index := 0#32
  ![v28.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let v49 : Index := Scalar.indexCast arg7
  let c0_10 : Index := 0#32
  ![v49.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S32x3_S32x1_0_0 : S32x3.Slices ![0, 0] S32x1
  shapeCasts_S32x1_S32 : S32x1.ShapeCasts S32
  slices_S32x3_S32x1_0_1 : S32x3.Slices ![0, 1] S32x1
  bcast_S_S32 : S_.BroadcastsInDim S32 (![] : Fin 0 → Fin S32.rank)
  bcast_S32_S32x1_0 : S32.BroadcastsInDim S32x1 (![0] : Fin 1 → Fin S32x1.rank)
  bcast_S_S32x128 : S_.BroadcastsInDim S32x128 (![] : Fin 0 → Fin S32x128.rank)
  slices_S32x256_S32x128_0_0 : S32x256.Slices ![0, 0] S32x128
  slices_S32x256_S32x128_0_128 : S32x256.Slices ![0, 128] S32x128
  reducesTo_S32x128_S32_d1 : S32x128.ReducesTo [1] S32
  h_S_ : 0 < S_.numel
  inb_S1024x256_S1024x256_0_0 : ∀ a, (![0, 0] : Fin 2 → Nat) a + S1024x256.size a ≤ S1024x256.size a
  h_S1024x256 : 0 < S1024x256.numel
  slices_S1024x256_o0_0_S1024x128 : S1024x256.Slices ![0, 0] S1024x128
  slices_S1024x256_o0_128_S1024x128 : S1024x256.Slices ![0, 128] S1024x128
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  transposes_S1024x1_p1_0_S1x1024 : S1024x1.Transposes [1, 0] S1x1024
  h_S1x128 : 0 < S1x128.numel
  shapeCasts_S1x128_S128 : S1x128.ShapeCasts S128
  h_S1x1 : 0 < S1x1.numel
  shapeCasts_S1x1_S1 : S1x1.ShapeCasts S1
  inpos_S1_p0 : ∀ a, (![0] : Fin 1 → Nat) a < S1.size a
  shapeCasts_S128_S1x128 : S128.ShapeCasts S1x128
  broadcasts_S1x128_S1024x128 : S1x128.Broadcasts S1024x128
  shapeCasts_S1x1024_S1024 : S1x1024.ShapeCasts S1024
  h_S1x1024 : 0 < S1x1024.numel
  shapeCasts_S1024_S1x1024 : S1024.ShapeCasts S1x1024
  gather_S50000x256_S32x1_S32x256_1_0_n_n_0_1_1256_wf : GatherDims.WF S50000x256 S32x1 S32x256 [1] [0] [] [0] [] 1 ![1, 256]
  gather_S50000x128_S32x1_S32x128_1_0_n_n_0_1_1128_wf : GatherDims.WF S50000x128 S32x1 S32x128 [1] [0] [] [0] [] 1 ![1, 128]
  gather_S500x128_S32x1_S32x128_1_0_n_n_0_1_1128_wf : GatherDims.WF S500x128 S32x1 S32x128 [1] [0] [] [0] [] 1 ![1, 128]
  hrank0 : 0 < grid0.rank
  k0_t1_ok : k0_t1_loop.OK
  k0_off1_inb : ∀ k0_t1 : Fin k0_t1_loop.trips, ∀ a, (k0_off1 k0_t1) a + S1x128.size a ≤ S32x128.size a
  k0_off2_inb : ∀ k0_t1 : Fin k0_t1_loop.trips, ∀ a, (k0_off2 k0_t1) a + S1x1.size a ≤ S32x1.size a
  k0_off3_inb : ∀ k0_t1 : Fin k0_t1_loop.trips, ∀ a, (k0_off3 k0_t1) a + S1x1024.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x256.size a < S50000x256.size a
  hwx0_0 : ∀ i : grid0.Coords, EltTy.bits .f32 = 32 ∨ (Rect.unit (s := S50000x256) (fun a => cc0_transform_0 i a * S1024x256.size a) (fun a => (Pipeline.Clip.of (cc0_transform_0 i a) (S1024x256.size a) (S50000x256.size a)).extent (S1024x256.size a)) fun a => Pipeline.Clip.inb (Pipeline.Clip.ok_of (hstart0_0 i a))).WholeWords (EltTy.packing .f32)
  hwxs0_0 : ∀ i : grid0.Coords, EltTy.bits .f32 = 32 ∨ (Rect.unit (s := S1024x256) (fun _ => 0) (fun a => (Pipeline.Clip.of (cc0_transform_0 i a) (S1024x256.size a) (S50000x256.size a)).extent (S1024x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x128.size a < S50000x128.size a
  hwx0_1 : ∀ i : grid0.Coords, EltTy.bits .f32 = 32 ∨ (Rect.unit (s := S50000x128) (fun a => cc0_transform_1 i a * S1024x128.size a) (fun a => (Pipeline.Clip.of (cc0_transform_1 i a) (S1024x128.size a) (S50000x128.size a)).extent (S1024x128.size a)) fun a => Pipeline.Clip.inb (Pipeline.Clip.ok_of (hstart0_1 i a))).WholeWords (EltTy.packing .f32)
  hwxs0_1 : ∀ i : grid0.Coords, EltTy.bits .f32 = 32 ∨ (Rect.unit (s := S1024x128) (fun _ => 0) (fun a => (Pipeline.Clip.of (cc0_transform_1 i a) (S1024x128.size a) (S50000x128.size a)).extent (S1024x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S32x1024.size a < S32x50000.size a
  hwx0_5 : ∀ i : grid0.Coords, EltTy.bits .f32 = 32 ∨ (Rect.unit (s := S32x50000) (fun a => cc0_transform_5 i a * S32x1024.size a) (fun a => (Pipeline.Clip.of (cc0_transform_5 i a) (S32x1024.size a) (S32x50000.size a)).extent (S32x1024.size a)) fun a => Pipeline.Clip.inb (Pipeline.Clip.ok_of (hstart0_5 i a))).WholeWords (EltTy.packing .f32)
  hwxs0_5 : ∀ i : grid0.Coords, EltTy.bits .f32 = 32 ∨ (Rect.unit (s := S32x1024) (fun _ => 0) (fun a => (Pipeline.Clip.of (cc0_transform_5 i a) (S32x1024.size a) (S32x50000.size a)).extent (S32x1024.size a)) fun a => (Nat.zero_add _).trans_le (Pipeline.Clip.extent_le (Pipeline.Clip.ok_of (hstart0_5 i a)))).WholeWords (EltTy.packing .f32)

variable [Facts₀]

def gather_S50000x256_S32x1_S32x256_1_0_n_n_0_1_1256 : GatherDims S50000x256 S32x1 S32x256 where
  offsetDims := [1]
  collapsedSliceDims := [0]
  operandBatchingDims := []
  startIndicesBatchingDims := []
  startIndexMap := [0]
  indexVectorDim := 1
  sliceSizes := ![1, 256]
  wf := gather_S50000x256_S32x1_S32x256_1_0_n_n_0_1_1256_wf
def gather_S50000x128_S32x1_S32x128_1_0_n_n_0_1_1128 : GatherDims S50000x128 S32x1 S32x128 where
  offsetDims := [1]
  collapsedSliceDims := [0]
  operandBatchingDims := []
  startIndicesBatchingDims := []
  startIndexMap := [0]
  indexVectorDim := 1
  sliceSizes := ![1, 128]
  wf := gather_S50000x128_S32x1_S32x128_1_0_n_n_0_1_1128_wf
def gather_S500x128_S32x1_S32x128_1_0_n_n_0_1_1128 : GatherDims S500x128 S32x1 S32x128 where
  offsetDims := [1]
  collapsedSliceDims := [0]
  operandBatchingDims := []
  startIndicesBatchingDims := []
  startIndexMap := [0]
  indexVectorDim := 1
  sliceSizes := ![1, 128]
  wf := gather_S500x128_S32x1_S32x128_1_0_n_n_0_1_1128_wf

abbrev win0_0 : Pipeline.Window sig grid0 :=
  Pipeline.Window.ofSpecClip (Memref.whole main_arg0) S1024x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1024x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v40) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v47) S32x1024.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S50000x128 : Shape := ⟨2, ![50000, 128]⟩
abbrev S500x128 : Shape := ⟨2, ![500, 128]⟩
abbrev S32x3 : Shape := ⟨2, ![32, 3]⟩
abbrev S_ : Shape := ⟨0, ![]⟩
abbrev S32x1 : Shape := ⟨2, ![32, 1]⟩
abbrev S32 : Shape := ⟨1, ![32]⟩
abbrev S32x256 : Shape := ⟨2, ![32, 256]⟩
abbrev S32x128 : Shape := ⟨2, ![32, 128]⟩
abbrev S32x1x128 : Shape := ⟨3, ![32, 1, 128]⟩
abbrev S1x50000x128 : Shape := ⟨3, ![1, 50000, 128]⟩
abbrev S32x50000x128 : Shape := ⟨3, ![32, 50000, 128]⟩
abbrev S32x50000 : Shape := ⟨2, ![32, 50000]⟩
abbrev S50000 : Shape := ⟨1, ![50000]⟩
abbrev S1x50000 : Shape := ⟨2, ![1, 50000]⟩

abbrev nBuf : Space → Nat
  | .hbm => 126
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x128, .f32⟩
  | .hbm, ⟨2, _⟩ => ⟨S500x128, .f32⟩
  | .hbm, ⟨3, _⟩ => ⟨S500x128, .f32⟩
  | .hbm, ⟨4, _⟩ => ⟨S32x3, .i32⟩
  | .hbm, ⟨5, _⟩ => ⟨S50000x128, .f32⟩
  | .hbm, ⟨6, _⟩ => ⟨S50000x128, .f32⟩
  | .hbm, ⟨7, _⟩ => ⟨S_, .f32⟩
  | .hbm, ⟨8, _⟩ => ⟨S50000x128, .f32⟩
  | .hbm, ⟨9, _⟩ => ⟨S50000x128, .f32⟩
  | .hbm, ⟨10, _⟩ => ⟨S50000x128, .f32⟩
  | .hbm, ⟨11, _⟩ => ⟨S50000x128, .f32⟩
  | .hbm, ⟨12, _⟩ => ⟨S50000x128, .i1⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S32x1, .i32⟩
  | .hbm, ⟨22, _⟩ => ⟨S32, .i32⟩
  | .hbm, ⟨23, _⟩ => ⟨S32x1, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S32x1, .i32⟩
  | .hbm, ⟨33, _⟩ => ⟨S32x256, .f32⟩
  | .hbm, ⟨34, _⟩ => ⟨S_, .i32⟩
  | .hbm, ⟨35, _⟩ => ⟨S32, .i32⟩
  | .hbm, ⟨36, _⟩ => ⟨S32, .i1⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S32x1, .i32⟩
  | .hbm, ⟨42, _⟩ => ⟨S32x128, .f32⟩
  | .hbm, ⟨43, _⟩ => ⟨S_, .f32⟩
  | .hbm, ⟨44, _⟩ => ⟨S32x128, .f32⟩
  | .hbm, ⟨45, _⟩ => ⟨S32x128, .f32⟩
  | .hbm, ⟨46, _⟩ => ⟨S32x128, .f32⟩
  | .hbm, ⟨47, _⟩ => ⟨S32x128, .f32⟩
  | .hbm, ⟨48, _⟩ => ⟨S32x128, .i1⟩
  | .hbm, ⟨49, _⟩ => ⟨S32x128, .f32⟩
  | .hbm, ⟨50, _⟩ => ⟨S32x128, .f32⟩
  | .hbm, ⟨51, _⟩ => ⟨S32x128, .f32⟩
  | .hbm, ⟨52, _⟩ => ⟨S32x128, .f32⟩
  | .hbm, ⟨53, _⟩ => ⟨S32x128, .f32⟩
  | .hbm, ⟨54, _⟩ => ⟨S32x128, .f32⟩
  | .hbm, ⟨55, _⟩ => ⟨S32x128, .f32⟩
  | .hbm, ⟨56, _⟩ => ⟨S32x128, .f32⟩
  | .hbm, ⟨57, _⟩ => ⟨S_, .i32⟩
  | .hbm, ⟨58, _⟩ => ⟨S32, .i32⟩
  | .hbm, ⟨59, _⟩ => ⟨S32, .i1⟩
  | .hbm, ⟨60, _⟩ => ⟨S_, .i32⟩
  | .hbm, ⟨61, _⟩ => ⟨S32, .i32⟩
  | .hbm, ⟨62, _⟩ => ⟨S32, .i32⟩
  | .hbm, ⟨63, _⟩ => ⟨S32, .i32⟩
  | .hbm, ⟨64, _⟩ => ⟨S32x1, .i32⟩
  | .hbm, ⟨65, _⟩ => ⟨S32x128, .f32⟩
  | .hbm, ⟨66, _⟩ => ⟨S_, .i32⟩
  | .hbm, ⟨67, _⟩ => ⟨S32, .i32⟩
  | .hbm, ⟨68, _⟩ => ⟨S32, .i1⟩
  | .hbm, ⟨69, _⟩ => ⟨S_, .i32⟩
  | .hbm, ⟨70, _⟩ => ⟨S32, .i32⟩
  | .hbm, ⟨71, _⟩ => ⟨S32, .i32⟩
  | .hbm, ⟨72, _⟩ => ⟨S32, .i32⟩
  | .hbm, ⟨73, _⟩ => ⟨S32x1, .i32⟩
  | .hbm, ⟨74, _⟩ => ⟨S32x128, .f32⟩
  | .hbm, ⟨75, _⟩ => ⟨S_, .f32⟩
  | .hbm, ⟨76, _⟩ => ⟨S32x128, .f32⟩
  | .hbm, ⟨77, _⟩ => ⟨S32x128, .f32⟩
  | .hbm, ⟨78, _⟩ => ⟨S32x128, .f32⟩
  | .hbm, ⟨79, _⟩ => ⟨S32x128, .f32⟩
  | .hbm, ⟨80, _⟩ => ⟨S32x128, .i1⟩
  | .hbm, ⟨81, _⟩ => ⟨S32x128, .f32⟩
  | .hbm, ⟨82, _⟩ => ⟨S32x128, .f32⟩
  | .hbm, ⟨83, _⟩ => ⟨S32x128, .f32⟩
  | .hbm, ⟨84, _⟩ => ⟨S32x128, .f32⟩
  | .hbm, ⟨85, _⟩ => ⟨S32x128, .f32⟩
  | .hbm, ⟨86, _⟩ => ⟨S32x128, .f32⟩
  | .hbm, ⟨87, _⟩ => ⟨S32x128, .f32⟩
  | .hbm, ⟨88, _⟩ => ⟨S32x128, .f32⟩
  | .hbm, ⟨89, _⟩ => ⟨S32x128, .f32⟩
  | .hbm, ⟨90, _⟩ => ⟨S32x128, .f32⟩
  | .hbm, ⟨91, _⟩ => ⟨S32x128, .f32⟩
  | .hbm, ⟨92, _⟩ => ⟨S32x128, .f32⟩
  | .hbm, ⟨93, _⟩ => ⟨S32x128, .f32⟩
  | .hbm, ⟨94, _⟩ => ⟨S32x128, .f32⟩
  | .hbm, ⟨95, _⟩ => ⟨S32x128, .f32⟩
  | .hbm, ⟨96, _⟩ => ⟨S32x128, .f32⟩
  | .hbm, ⟨97, _⟩ => ⟨S32x128, .f32⟩
  | .hbm, ⟨98, _⟩ => ⟨S32x128, .f32⟩
  | .hbm, ⟨99, _⟩ => ⟨S32x128, .f32⟩
  | .hbm, ⟨100, _⟩ => ⟨S32x1x128, .f32⟩
  | .hbm, ⟨101, _⟩ => ⟨S1x50000x128, .f32⟩
  | .hbm, ⟨102, _⟩ => ⟨S32x50000x128, .f32⟩
  | .hbm, ⟨103, _⟩ => ⟨S32x50000x128, .f32⟩
  | .hbm, ⟨104, _⟩ => ⟨S32x50000x128, .f32⟩
  | .hbm, ⟨105, _⟩ => ⟨S32x1x128, .f32⟩
  | .hbm, ⟨106, _⟩ => ⟨S1x50000x128, .f32⟩
  | .hbm, ⟨107, _⟩ => ⟨S32x50000x128, .f32⟩
  | .hbm, ⟨108, _⟩ => ⟨S32x50000x128, .f32⟩
  | .hbm, ⟨109, _⟩ => ⟨S32x50000x128, .f32⟩
  | .hbm, ⟨110, _⟩ => ⟨S32x50000x128, .f32⟩
  | .hbm, ⟨111, _⟩ => ⟨S32x50000x128, .f32⟩
  | .hbm, ⟨112, _⟩ => ⟨S32x50000x128, .f32⟩
  | .hbm, ⟨113, _⟩ => ⟨S32x50000x128, .f32⟩
  | .hbm, ⟨114, _⟩ => ⟨S_, .f32⟩
  | .hbm, ⟨115, _⟩ => ⟨S32x50000, .f32⟩
  | .hbm, ⟨116, _⟩ => ⟨S_, .f32⟩
  | .hbm, ⟨117, _⟩ => ⟨S32, .f32⟩
  | .hbm, ⟨118, _⟩ => ⟨S32x1, .f32⟩
  | .hbm, ⟨119, _⟩ => ⟨S_, .f32⟩
  | .hbm, ⟨120, _⟩ => ⟨S50000, .f32⟩
  | .hbm, ⟨121, _⟩ => ⟨S1x50000, .f32⟩
  | .hbm, ⟨122, _⟩ => ⟨S32x50000, .f32⟩
  | .hbm, ⟨123, _⟩ => ⟨S32x50000, .f32⟩
  | .hbm, ⟨124, _⟩ => ⟨S32x50000, .f32⟩
  | .hbm, ⟨125, _⟩ => ⟨S32x50000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_v21 : Ref sig .tc := ⟨.hbm, 56, rfl⟩
abbrev main_c_3 : Ref sig .tc := ⟨.hbm, 57, rfl⟩
abbrev main_v22 : Ref sig .tc := ⟨.hbm, 58, rfl⟩
abbrev main_v23 : Ref sig .tc := ⟨.hbm, 59, rfl⟩
abbrev main_c_4 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_5 : Ref sig .tc := ⟨.hbm, 66, rfl⟩
abbrev main_v29 : Ref sig .tc := ⟨.hbm, 67, rfl⟩
abbrev main_v30 : Ref sig .tc := ⟨.hbm, 68, rfl⟩
abbrev main_c_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst : Ref sig .tc := ⟨.hbm, 114, rfl⟩
abbrev main_v62 : Ref sig .tc := ⟨.hbm, 115, rfl⟩
abbrev main_cst_7 : Ref sig .tc := ⟨.hbm, 116, rfl⟩
abbrev main_v63 : Ref sig .tc := ⟨.hbm, 117, rfl⟩
abbrev main_v64 : Ref sig .tc := ⟨.hbm, 118, rfl⟩
abbrev main_cst_8 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩

abbrev nD : Nat := 1
abbrev τ : Topo := Topo.v7x

variable {F : FTy → Type} [FloatOps F]

class Facts₀ : Prop where
  slices_S50000x256_S50000x128_0_0 : S50000x256.Slices ![0, 0] S50000x128
  slices_S50000x256_S50000x128_0_128 : S50000x256.Slices ![0, 128] S50000x128
  bcast_S_S50000x128 : S_.BroadcastsInDim S50000x128 (![] : Fin 0 → Fin S50000x128.rank)
  slices_S32x3_S32x1_0_0 : S32x3.Slices ![0, 0] S32x1
  shapeCasts_S32x1_S32 : S32x1.ShapeCasts S32
  slices_S32x3_S32x1_0_1 : S32x3.Slices ![0, 1] S32x1
  bcast_S_S32 : S_.BroadcastsInDim S32 (![] : Fin 0 → Fin S32.rank)
  bcast_S32_S32x1_0 : S32.BroadcastsInDim S32x1 (![0] : Fin 1 → Fin S32x1.rank)
  bcast_S_S32x128 : S_.BroadcastsInDim S32x128 (![] : Fin 0 → Fin S32x128.rank)
  slices_S32x256_S32x128_0_0 : S32x256.Slices ![0, 0] S32x128
  slices_S32x256_S32x128_0_128 : S32x256.Slices ![0, 128] S32x128
  bcast_S32x128_S32x1x128_0_2 : S32x128.BroadcastsInDim S32x1x128 (![0, 2] : Fin 2 → Fin S32x1x128.rank)
  bcast_S50000x128_S1x50000x128_1_2 : S50000x128.BroadcastsInDim S1x50000x128 (![1, 2] : Fin 2 → Fin S1x50000x128.rank)
  bcast_S32x1x128_S32x50000x128_0_1_2 : S32x1x128.BroadcastsInDim S32x50000x128 (![0, 1, 2] : Fin 3 → Fin S32x50000x128.rank)
  bcast_S1x50000x128_S32x50000x128_0_1_2 : S1x50000x128.BroadcastsInDim S32x50000x128 (![0, 1, 2] : Fin 3 → Fin S32x50000x128.rank)
  reducesTo_S32x50000x128_S32x50000_d2 : S32x50000x128.ReducesTo [2] S32x50000
  h_S_ : 0 < S_.numel
  reducesTo_S32x128_S32_d1 : S32x128.ReducesTo [1] S32
  reducesTo_S50000x128_S50000_d1 : S50000x128.ReducesTo [1] S50000
  bcast_S50000_S1x50000_1 : S50000.BroadcastsInDim S1x50000 (![1] : Fin 1 → Fin S1x50000.rank)
  bcast_S32x1_S32x50000_0_1 : S32x1.BroadcastsInDim S32x50000 (![0, 1] : Fin 2 → Fin S32x50000.rank)
  bcast_S1x50000_S32x50000_0_1 : S1x50000.BroadcastsInDim S32x50000 (![0, 1] : Fin 2 → Fin S32x50000.rank)
  gather_S50000x256_S32x1_S32x256_1_0_n_n_0_1_1256_wf : GatherDims.WF S50000x256 S32x1 S32x256 [1] [0] [] [0] [] 1 ![1, 256]
  gather_S50000x128_S32x1_S32x128_1_0_n_n_0_1_1128_wf : GatherDims.WF S50000x128 S32x1 S32x128 [1] [0] [] [0] [] 1 ![1, 128]
  gather_S500x128_S32x1_S32x128_1_0_n_n_0_1_1128_wf : GatherDims.WF S500x128 S32x1 S32x128 [1] [0] [] [0] [] 1 ![1, 128]

variable [Facts₀]

def gather_S50000x256_S32x1_S32x256_1_0_n_n_0_1_1256 : GatherDims S50000x256 S32x1 S32x256 where
  offsetDims := [1]
  collapsedSliceDims := [0]
  operandBatchingDims := []
  startIndicesBatchingDims := []
  startIndexMap := [0]
  indexVectorDim := 1
  sliceSizes := ![1, 256]
  wf := gather_S50000x256_S32x1_S32x256_1_0_n_n_0_1_1256_wf
def gather_S50000x128_S32x1_S32x128_1_0_n_n_0_1_1128 : GatherDims S50000x128 S32x1 S32x128 where
  offsetDims := [1]
  collapsedSliceDims := [0]
  operandBatchingDims := []
  startIndicesBatchingDims := []
  startIndexMap := [0]
  indexVectorDim := 1
  sliceSizes := ![1, 128]
  wf := gather_S50000x128_S32x1_S32x128_1_0_n_n_0_1_1128_wf
def gather_S500x128_S32x1_S32x128_1_0_n_n_0_1_1128 : GatherDims S500x128 S32x1 S32x128 where
  offsetDims := [1]
  collapsedSliceDims := [0]
  operandBatchingDims := []
  startIndicesBatchingDims := []
  startIndexMap := [0]
  indexVectorDim := 1
  sliceSizes := ![1, 128]
  wf := gather_S500x128_S32x1_S32x128_1_0_n_n_0_1_1128_wf

class Facts : Prop extends Facts₀ where

variable [Facts]
-- ==== Proof.DistBodyBits.lean ====
/-
  The distance kernel's body, run once on whole staging buffers: it loads the entity block (1024 rows of 256
  centre coordinates) and the radius block (1024 rows of 128), then for each of the 32 batch rows loads that
  row of the rotated head (real part, imaginary part, radius sum) and stores one row of 1024 scores into the
  result's buffer. The five input buffers are left as found; the result's buffer ends as its contents before
  the body overwritten by the rows the 32 trips stored, newest first.
-/
import proofs.«151731_j42064909697223_2_alg».proof.Proof.Gen.Kernel.Frame
import proofs.«151731_j42064909697223_2_alg».proof.Proof.Gen.Kernel.Loops
import proofs.«151731_j42064909697223_2_alg».proof.Proof.Gen.Kernel.Skeleton

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The rows the body's 32 trips store into the result's staging buffer (newest first), with the proof that
    from whole staging buffers — the five inputs at their contents, the result's at anything — the body runs
    to a state holding the inputs as they were and the result's buffer with those rows written. -/
noncomputable def bodyRun (c : Dev nD) (i : grid0.Coords)
    (arg1 : Memref sig .tc .vmem S1024x256 .f32) (harg1 : arg1.IsWhole)
    (arg2 : Memref sig .tc .vmem S1024x128 .f32) (harg2 : arg2.IsWhole)
    (arg3 : Memref sig .tc .vmem S32x128 .f32) (harg3 : arg3.IsWhole)
    (arg4 : Memref sig .tc .vmem S32x128 .f32) (harg4 : arg4.IsWhole)
    (arg5 : Memref sig .tc .vmem S32x1 .f32) (harg5 : arg5.IsWhole)
    (arg6 : Memref sig .tc .vmem S32x1024 .f32) (harg6 : arg6.IsWhole)
    (x0 : Vec F S1024x256 .f32) (x1 : Vec F S1024x128 .f32) (x2 x3 : Vec F S32x128 .f32) (x4 : Vec F S32x1 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) E
              (cc0__dist_kernel i arg1 harg1 arg2 harg2 arg3 harg3 arg4 harg4 arg5 harg5 arg6 harg6) K } := by
  refine ⟨?_, fun E K => ?run⟩
  case run =>
    simp only [cc0__dist_kernel_eq_skeleton]; unfold cc0__dist_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Dist

end
-- ==== Proof.DistFrameBits.lean ====
/-
  The word-level kernel runs to the end, faults nowhere and leaves its argument arrays as they were. Nothing
  here says what the result holds: every staging buffer is handed to the body at arbitrary contents and taken
  back at arbitrary contents, so the body's run from any contents is all the pipeline needs; the two entity
  tables are only ever read by the fetches, and the other arguments are not staged at all.
-/
import proofs.«151731_j42064909697223_2_alg».proof.Proof.DistBodyBits

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's staging contents are left unnamed. -/
def forgets : Fin 6 → Bool := fun _ => true

/-- The proof data: the arrays as the region finds them; no staging contents named; the invariant the scoped
    rest and the generator register; nothing owed; full shares. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The body at any point, from any contents of the six staging buffers, to some contents of them. -/
theorem sound_body (c : Dev nD) (t : Fin cfg0.N) :
    iprop((dats m 0 c).Φ t.castSucc ∗ (dats m 0 c).owesAt () t.castSucc
      ∗ (∃ X, owns (c : Thread nD τ) (st0_0 t) fullShare X) ∗ (∃ X, owns (c : Thread nD τ) (st0_1 t) fullShare X)
      ∗ (∃ X, owns (c : Thread nD τ) (st0_2 t) fullShare X) ∗ (∃ X, owns (c : Thread nD τ) (st0_3 t) fullShare X)
      ∗ (∃ X, owns (c : Thread nD τ) (st0_4 t) fullShare X) ∗ (∃ X, owns (c : Thread nD τ) (st0_5 t) fullShare X))
    ⊢ wp frame (wpE (defs₀ (F := F)) Variants.none c none) Set.univ (bodyAt0 t) (fun _ =>
      iprop((dats m 0 c).Φ t.succ ∗ (dats m 0 c).owesAt () t.succ
      ∗ (∃ X, owns (c : Thread nD τ) (st0_0 t) fullShare X) ∗ (∃ X, owns (c : Thread nD τ) (st0_1 t) fullShare X)
      ∗ (∃ X, owns (c : Thread nD τ) (st0_2 t) fullShare X) ∗ (∃ X, owns (c : Thread nD τ) (st0_3 t) fullShare X)
      ∗ (∃ X, owns (c : Thread nD τ) (st0_4 t) fullShare X) ∗ (∃ X, owns (c : Thread nD τ) (st0_5 t) fullShare X))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩, ⟨%X4, H4⟩, ⟨%X5, H5⟩⟩
  iapply ((bodyRun c (grid0.coords t) _ _ _ _ _ _ _ _ _ _ _ _ X0 X1 X2 X3 X4).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  unfold owns; iexists _; iexists _; isplitr
  swap; · iexact H5
  ipureintro; rfl

/-- The library's body obligation with every window forgotten. -/
theorem body_obligation (c : Dev nD) : BodyObligation (dats (F := F) m 0 c) (defs₀ (F := F)) Variants.none () Set.univ forgets := fun t => by
  rw [bigSep_W0, bigSep_W0]
  exact sound_body m c t

set_option backward.isDefEq.respectTransparency.types false in
/-- Every weakly fair execution of @main terminates, with the staged input arrays unchanged and every unscoped
    buffer no window stages at what the region found. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

set_option maxHeartbeats 4000000 in
/-- The frame: the run read at the five argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun (((dats m 0 c).toRForget forgets).ArrAt_in 0 rfl _) _) ((h c).1 0)).trans ((A_eq m c 0).trans (V_main_arg0 m c)),
      (Eq.mp (congrFun (((dats m 0 c).toRForget forgets).ArrAt_in 1 rfl _) _) ((h c).1 1)).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel.Dist

end
-- ==== Proof.DistGeom.lean ====
/-
  Where the blocks sit. Point t of the 49-point grid stages rows 1024 t .. 1024 t + 1023 of the two entity tables
  (all 256, respectively 128, columns), the three head arrays whole, and columns 1024 t .. 1024 t + 1023 of the
  32-row result. 50000 = 48 * 1024 + 848, so at the last point only the first 848 rows (columns) are inside the
  arrays: the transfers move min 1024 (50000 - 1024 t) of them. A staged element read at block coordinates is the
  array's element at those coordinates shifted by the block's offset.
-/
import proofs.«151731_j42064909697223_2_alg».proof.Proof.Gen.KernelIdeal.Frame
import Idealize.ShloMosaic.Lib.ValueIdx

set_option maxRecDepth 16384

noncomputable section

namespace Cert.KernelIdeal.Dist

open Cert.KernelIdeal Cert.KernelIdeal.Gen
open Idealize.ShloMosaic Idealize.ShloMosaic.TcCoe Idealize.ShloMosaic.ValueIdx
open Idealize.SL Idealize.SL.Sem

/-- How many of a block's 1024 rows (or columns) lie inside the 50000-long axis at point `t`. -/
abbrev inside (t : Fin cfg0.N) : Nat := min 1024 (50000 - 1024 * t.val)

theorem w0_i0 : ∀ t : Fin cfg0.N, win0_0.index t 0 = t.val := (by decide +kernel : ∀ t : Fin grid0.N, win0_0.index t 0 = t.val)
theorem w0_i1 : ∀ t : Fin cfg0.N, win0_0.index t 1 = 0 := (by decide +kernel : ∀ t : Fin grid0.N, win0_0.index t 1 = 0)
theorem w0_x0 : ∀ t : Fin cfg0.N, win0_0.xsize (grid0.coords t) 0 = inside t :=
  (by decide +kernel : ∀ t : Fin grid0.N, win0_0.xsize (grid0.coords t) 0 = min 1024 (50000 - 1024 * t.val))
theorem w0_x1 : ∀ t : Fin cfg0.N, win0_0.xsize (grid0.coords t) 1 = 256 :=
  (by decide +kernel : ∀ t : Fin grid0.N, win0_0.xsize (grid0.coords t) 1 = 256)
theorem w1_i0 : ∀ t : Fin cfg0.N, win0_1.index t 0 = t.val := (by decide +kernel : ∀ t : Fin grid0.N, win0_1.index t 0 = t.val)
theorem w1_i1 : ∀ t : Fin cfg0.N, win0_1.index t 1 = 0 := (by decide +kernel : ∀ t : Fin grid0.N, win0_1.index t 1 = 0)
theorem w1_x0 : ∀ t : Fin cfg0.N, win0_1.xsize (grid0.coords t) 0 = inside t :=
  (by decide +kernel : ∀ t : Fin grid0.N, win0_1.xsize (grid0.coords t) 0 = min 1024 (50000 - 1024 * t.val))
theorem w1_x1 : ∀ t : Fin cfg0.N, win0_1.xsize (grid0.coords t) 1 = 128 :=
  (by decide +kernel : ∀ t : Fin grid0.N, win0_1.xsize (grid0.coords t) 1 = 128)
theorem w5_i0 : ∀ t : Fin cfg0.N, win0_5.index t 0 = 0 := (by decide +kernel : ∀ t : Fin grid0.N, win0_5.index t 0 = 0)
theorem w5_i1 : ∀ t : Fin cfg0.N, win0_5.index t 1 = t.val := (by decide +kernel : ∀ t : Fin grid0.N, win0_5.index t 1 = t.val)
theorem w5_x0 : ∀ t : Fin cfg0.N, win0_5.xsize (grid0.coords t) 0 = 32 :=
  (by decide +kernel : ∀ t : Fin grid0.N, win0_5.xsize (grid0.coords t) 0 = 32)
theorem w5_x1 : ∀ t : Fin cfg0.N, win0_5.xsize (grid0.coords t) 1 = inside t :=
  (by decide +kernel : ∀ t : Fin grid0.N, win0_5.xsize (grid0.coords t) 1 = min 1024 (50000 - 1024 * t.val))
theorem w2_i : ∀ t : Fin cfg0.N, win0_2.index t 0 = 0 ∧ win0_2.index t 1 = 0 :=
  (by decide +kernel : ∀ t : Fin grid0.N, win0_2.index t 0 = 0 ∧ win0_2.index t 1 = 0)
theorem w3_i : ∀ t : Fin cfg0.N, win0_3.index t 0 = 0 ∧ win0_3.index t 1 = 0 :=
  (by decide +kernel : ∀ t : Fin grid0.N, win0_3.index t 0 = 0 ∧ win0_3.index t 1 = 0)
theorem w4_i : ∀ t : Fin cfg0.N, win0_4.index t 0 = 0 ∧ win0_4.index t 1 = 0 :=
  (by decide +kernel : ∀ t : Fin grid0.N, win0_4.index t 0 = 0 ∧ win0_4.index t 1 = 0)
/-- The result's window is never fetched. -/
theorem fetch0_5 : ∀ t : Fin cfg0.N, (cfg0.win 5).fetch t = false :=
  (by decide +kernel : ∀ t : Fin grid0.N, win0_5.fetch t = false)

/-- A row inside the array at point `t` is a row of the array. -/
theorem row_lt (t : Fin cfg0.N) (n : Nat) (hn : n < inside t) : 1024 * t.val + n < 50000 := by
  have := t.isLt; show 1024 * t.val + n < 50000; unfold inside at hn; omega

variable {F : FTy → Type} [FloatOps F]
variable (m : (ℓ : Loc nD τ sig) → Buf (Elt F) ℓ)

/-- The entity-centre block at point `t`, wherever a fetch left it in a staging buffer holding `d`: at a row
    inside the array, the table's row `1024 t + n`. -/
theorem centre_at (c : Dev nD) (t : Fin cfg0.N) (d : S1024x256.Idx → Elt F .f32) (n : Fin 1024) (q : Fin 256)
    (hn : n.val < inside t) :
    win0_0.fill (grid0.coords t) d (iblk m c 0 t) (ix2 n q)
      = (V m c main_arg0 : S50000x256.Idx → Elt F .f32) (ix2 ⟨1024 * t.val + n.val, row_lt t n.val hn⟩ q) := by
  have hm : win0_0.moved (grid0.coords t) (ix2 n q) = true := (win0_0.moved_iff _ _).mpr fun a => by
    match a with
    | ⟨0, _⟩ => exact lt_of_lt_of_eq hn (w0_x0 t).symm
    | ⟨1, _⟩ => exact lt_of_lt_of_eq q.isLt (w0_x1 t).symm
  unfold Pipeline.Window.fill; rw [dif_pos hm]
  show (V m c main_arg0 : S50000x256.Idx → Elt F .f32) ((win0_0.blk t).view.emb _) = _
  refine congrArg _ (funext fun a => Fin.ext ?_)
  match a with
  | ⟨0, _⟩ => show win0_0.index t 0 * 1024 + 1 * n.val = 1024 * t.val + n.val; rw [w0_i0 t]; omega
  | ⟨1, _⟩ => show win0_0.index t 1 * 256 + 1 * q.val = q.val; rw [w0_i1 t]; omega

/-- The radius block likewise. -/
theorem radius_at (c : Dev nD) (t : Fin cfg0.N) (d : S1024x128.Idx → Elt F .f32) (n : Fin 1024) (k : Fin 128)
    (hn : n.val < inside t) :
    win0_1.fill (grid0.coords t) d (iblk m c 1 t) (ix2 n k)
      = (V m c main_arg1 : S50000x128.Idx → Elt F .f32) (ix2 ⟨1024 * t.val + n.val, row_lt t n.val hn⟩ k) := by
  have hm : win0_1.moved (grid0.coords t) (ix2 n k) = true := (win0_1.moved_iff _ _).mpr fun a => by
    match a with
    | ⟨0, _⟩ => exact lt_of_lt_of_eq hn (w1_x0 t).symm
    | ⟨1, _⟩ => exact lt_of_lt_of_eq k.isLt (w1_x1 t).symm
  unfold Pipeline.Window.fill; rw [dif_pos hm]
  show (V m c main_arg1 : S50000x128.Idx → Elt F .f32) ((win0_1.blk t).view.emb _) = _
  refine congrArg _ (funext fun a => Fin.ext ?_)
  match a with
  | ⟨0, _⟩ => show win0_1.index t 0 * 1024 + 1 * n.val = 1024 * t.val + n.val; rw [w1_i0 t]; omega
  | ⟨1, _⟩ => show win0_1.index t 1 * 128 + 1 * k.val = k.val; rw [w1_i1 t]; omega

/-- The three head blocks are their whole arrays at every point. -/
theorem head_re_at (c : Dev nD) (t : Fin cfg0.N) (b : Fin 32) (k : Fin 128) :
    iblk m c 2 t (ix2 b k) = (V m c main_v40 : S32x128.Idx → Elt F .f32) (ix2 b k) := by
  show (V m c main_v40 : S32x128.Idx → Elt F .f32) ((win0_2.blk t).view.emb _) = _
  refine congrArg _ (funext fun a => Fin.ext ?_)
  match a with
  | ⟨0, _⟩ => show win0_2.index t 0 * 32 + 1 * b.val = b.val; rw [(w2_i t).1]; omega
  | ⟨1, _⟩ => show win0_2.index t 1 * 128 + 1 * k.val = k.val; rw [(w2_i t).2]; omega
theorem head_im_at (c : Dev nD) (t : Fin cfg0.N) (b : Fin 32) (k : Fin 128) :
    iblk m c 3 t (ix2 b k) = (V m c main_v43 : S32x128.Idx → Elt F .f32) (ix2 b k) := by
  show (V m c main_v43 : S32x128.Idx → Elt F .f32) ((win0_3.blk t).view.emb _) = _
  refine congrArg _ (funext fun a => Fin.ext ?_)
  match a with
  | ⟨0, _⟩ => show win0_3.index t 0 * 32 + 1 * b.val = b.val; rw [(w3_i t).1]; omega
  | ⟨1, _⟩ => show win0_3.index t 1 * 128 + 1 * k.val = k.val; rw [(w3_i t).2]; omega
theorem head_rs_at (c : Dev nD) (t : Fin cfg0.N) (b : Fin 32) :
    iblk m c 4 t (ix2 b (0 : Fin 1)) = (V m c main_v46 : S32x1.Idx → Elt F .f32) (ix2 b (0 : Fin 1)) := by
  show (V m c main_v46 : S32x1.Idx → Elt F .f32) ((win0_4.blk t).view.emb _) = _
  refine congrArg _ (funext fun a => Fin.ext ?_)
  match a with
  | ⟨0, _⟩ => show win0_4.index t 0 * 32 + 1 * b.val = b.val; rw [(w4_i t).1]; omega
  | ⟨1, _⟩ => show win0_4.index t 1 * 1 + 1 * (0 : Fin 1).val = (0 : Fin 1).val; rw [(w4_i t).2]; rfl

end Cert.KernelIdeal.Dist

end
-- ==== Proof.DistBody.lean ====
/-
  The distance kernel's body, run once on whole staging buffers: it loads the entity block (1024 rows of 256
  centre coordinates) and the radius block (1024 rows of 128), then for each of the 32 batch rows loads that
  row of the rotated head (real part, imaginary part, radius sum) and stores one row of 1024 scores into the
  result's buffer. The five input buffers are left as found; the result's buffer ends as its contents before
  the body overwritten by the rows the 32 trips stored, newest first.
-/
import proofs.«151731_j42064909697223_2_alg».proof.Proof.Gen.KernelIdeal.Frame
import proofs.«151731_j42064909697223_2_alg».proof.Proof.Gen.KernelIdeal.Loops
import proofs.«151731_j42064909697223_2_alg».proof.Proof.Gen.KernelIdeal.Skeleton

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The rows the body's 32 trips store into the result's staging buffer (newest first), with the proof that
    from whole staging buffers — the five inputs at their contents, the result's at anything — the body runs
    to a state holding the inputs as they were and the result's buffer with those rows written. -/
noncomputable def bodyRun (c : Dev nD) (i : grid0.Coords)
    (arg1 : Memref sig .tc .vmem S1024x256 .f32) (harg1 : arg1.IsWhole)
    (arg2 : Memref sig .tc .vmem S1024x128 .f32) (harg2 : arg2.IsWhole)
    (arg3 : Memref sig .tc .vmem S32x128 .f32) (harg3 : arg3.IsWhole)
    (arg4 : Memref sig .tc .vmem S32x128 .f32) (harg4 : arg4.IsWhole)
    (arg5 : Memref sig .tc .vmem S32x1 .f32) (harg5 : arg5.IsWhole)
    (arg6 : Memref sig .tc .vmem S32x1024 .f32) (harg6 : arg6.IsWhole)
    (x0 : Vec F S1024x256 .f32) (x1 : Vec F S1024x128 .f32) (x2 x3 : Vec F S32x128 .f32) (x4 : Vec F S32x1 .f32) :
    { L : List (View.Piece (Elt F) S32x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) E
              (cc0__dist_kernel i arg1 harg1 arg2 harg2 arg3 harg3 arg4 harg4 arg5 harg5 arg6 harg6) K } := by
  refine ⟨?_, fun E K => ?run⟩
  case run =>
    simp only [cc0__dist_kernel_eq_skeleton]; unfold cc0__dist_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Dist

end
-- ==== Proof.DistRows.lean ====
/-
  What the result's staging buffer reads after the body's 32 trips. Trip k stores one whole row, row k, of 1024
  scores, computed from the two entity blocks and row k of the three head blocks; the rows are distinct, so
  after K trips an index in a row below K reads that row's score at its column and any other index reads what
  the buffer held before the loop.
-/
import proofs.«151731_j42064909697223_2_alg».proof.Proof.DistBody
import Idealize.ShloMosaic.Lib.WritesUnit
import Idealize.ShloMosaic.Lib.ValueIdx
import Idealize.ShloMosaic.Lib.Pipeline.Value

set_option maxRecDepth 16384

noncomputable section

namespace Cert.KernelIdeal.Dist

open Cert.KernelIdeal Cert.KernelIdeal.Gen
open Idealize.ShloMosaic Idealize.ShloMosaic.TcCoe
open Idealize.SL Idealize.SL.Sem

variable {F : FTy → Type} [FloatOps F]

/-- The loop runs 32 trips. -/
theorem trips_eq : k0_t1_loop.trips = 32 := by decide

/-- An index of the result's block, within the one row a trip stores: row 0, the same column. -/
abbrev rowIdx (y : S32x1024.Idx) : S1x1024.Idx := fun a => match a with
  | ⟨0, _⟩ => ⟨0, Nat.one_pos⟩
  | ⟨1, _⟩ => ⟨(y 1).val, (y 1).isLt⟩

section
variable (c : Dev nD) (i : grid0.Coords) (arg1 : Memref sig .tc .vmem S1024x256 .f32) (harg1 : arg1.IsWhole)
    (arg2 : Memref sig .tc .vmem S1024x128 .f32) (harg2 : arg2.IsWhole)
    (arg3 : Memref sig .tc .vmem S32x128 .f32) (harg3 : arg3.IsWhole)
    (arg4 : Memref sig .tc .vmem S32x128 .f32) (harg4 : arg4.IsWhole)
    (arg5 : Memref sig .tc .vmem S32x1 .f32) (harg5 : arg5.IsWhole)
    (arg6 : Memref sig .tc .vmem S32x1024 .f32) (harg6 : arg6.IsWhole)
  (v0 : Vec F S1024x256 .f32) (v3 : Vec F S1024x128 .f32)
  (X3 : BufTy.Contents (Elt F) arg3.view.ty) (X4 : BufTy.Contents (Elt F) arg4.view.ty) (X5 : BufTy.Contents (Elt F) arg5.view.ty)

/-- The row of scores trip `k` stores: the body's arithmetic on the two entity blocks and row `k` of the head's
    real part, imaginary part and radius sum. -/
def tripRow (k : Fin k0_t1_loop.trips) : FVec F S1x1024 .f32 :=
  k0_pay1 v0 v3
    (View.readAt (Elt F) arg3.view (Rect.unit (s := S32x128) (k0_off1 k) S1x128.size (k0_off1_inb k)).toLoadRect X3)
    (View.readAt (Elt F) arg4.view (Rect.unit (s := S32x128) (k0_off1 k) S1x128.size (k0_off1_inb k)).toLoadRect X4)
    (View.readAt (Elt F) arg5.view (Rect.unit (s := S32x1) (k0_off2 k) S1x1.size (k0_off2_inb k)).toLoadRect X5)

/-- One trip writes one piece: its row. -/
theorem tripL_eq (k : Fin k0_t1_loop.trips) :
    tripL_k0_t1 (F := F) Variants.none c none i arg1 harg1 arg2 harg2 arg3 harg3 arg4 harg4 arg5 harg5 arg6 harg6 v0 v3 X3 X4 X5 k
      = [(⟨Rect.unit (s := S32x1024) (k0_off3 k) S1x1024.size (k0_off3_inb k), tripRow arg3 arg4 arg5 v0 v3 X3 X4 X5 k⟩ : View.Piece (Elt F) S32x1024 .f32)] := by
  unfold tripL_k0_t1 trip_k0_t1; rfl

/-- After `K` trips: a row below `K` reads its trip's score, any other row what the buffer held. -/
theorem read_pb (f : BufTy.Contents (Elt F) arg6.view.ty) :
    ∀ (K : ℕ) (hK : K ≤ k0_t1_loop.trips) (y : S32x1024.Idx),
      arg6.view.read (Elt F) (arg6.view.writes (Elt F) f
          (pb_k0_t1 (F := F) Variants.none c none i arg1 harg1 arg2 harg2 arg3 harg3 arg4 harg4 arg5 harg5 arg6 harg6 v0 v3 X3 X4 X5 K)) y
        = if h : (y 0).val < K then tripRow arg3 arg4 arg5 v0 v3 X3 X4 X5 ⟨(y 0).val, Nat.lt_of_lt_of_le h hK⟩ (rowIdx y)
          else arg6.view.read (Elt F) f y
  | 0, _, y => by
    rw [dif_neg (Nat.not_lt_zero _)]; rfl
  | K + 1, hK, y => by
    have hK' : K < k0_t1_loop.trips := hK
    have ih := read_pb f K (Nat.le_of_lt hK') y
    have hs := pb_k0_t1_succ (F := F) Variants.none c none i arg1 harg1 arg2 harg2 arg3 harg3 arg4 harg4 arg5 harg5 arg6 harg6 v0 v3 X3 X4 X5 ⟨K, hK'⟩
    rw [show ((⟨K, hK'⟩ : Fin k0_t1_loop.trips).val + 1) = K + 1 from rfl] at hs
    rw [hs, tripL_eq, List.singleton_append,
      View.read_writes_cons_rows arg6.view f (k0_off3_inb ⟨K, hK'⟩) _ _ y (o := K) (W := 1) (k0_off3_eq ⟨K, hK'⟩) rfl rfl, ih]
    by_cases h1 : (y 0).val < K
    · rw [dif_neg (by omega), dif_pos h1, dif_pos (by omega)]
    · by_cases h2 : (y 0).val = K
      · rw [dif_pos (by omega), dif_pos (by omega)]
        have e : (⟨(y 0).val, Nat.lt_of_lt_of_le (by omega : (y 0).val < K + 1) hK⟩ : Fin k0_t1_loop.trips) = ⟨K, hK'⟩ := Fin.ext h2
        rw [e]
        refine congrArg (tripRow arg3 arg4 arg5 v0 v3 X3 X4 X5 ⟨K, hK'⟩) (funext fun a => Fin.ext ?_)
        match a with
        | ⟨0, _⟩ => show (y 0).val - K = 0; omega
        | ⟨1, _⟩ => show (y 1).val - 0 = (y 1).val; omega
      · rw [dif_neg (by omega), dif_neg h1, dif_neg (by omega)]

end

/-- The spelling `![0, 0]` of the zero offsets. -/
theorem zero2 : (![0, 0] : Fin 2 → Nat) = fun _ => 0 := funext fun a => by fin_cases a <;> rfl

/-- What the result's buffer reads after the whole body, run on blocks `x0 … x4`: at row `b`, column `n`, the row
    of scores computed from the two entity blocks and row `b` of the three head blocks, at column `n`. -/
theorem bodyRun_read (c : Dev nD) (i : grid0.Coords) (arg1 : Memref sig .tc .vmem S1024x256 .f32) (harg1 : arg1.IsWhole)
    (arg2 : Memref sig .tc .vmem S1024x128 .f32) (harg2 : arg2.IsWhole)
    (arg3 : Memref sig .tc .vmem S32x128 .f32) (harg3 : arg3.IsWhole)
    (arg4 : Memref sig .tc .vmem S32x128 .f32) (harg4 : arg4.IsWhole)
    (arg5 : Memref sig .tc .vmem S32x1 .f32) (harg5 : arg5.IsWhole)
    (arg6 : Memref sig .tc .vmem S32x1024 .f32) (harg6 : arg6.IsWhole)
    (x0 : Vec F S1024x256 .f32) (x1 : Vec F S1024x128 .f32) (x2 x3 : Vec F S32x128 .f32) (x4 : Vec F S32x1 .f32)
    (f : BufTy.Contents (Elt F) arg6.view.ty) (y : S32x1024.Idx) (hy : (y 0).val < k0_t1_loop.trips) :
    arg6.view.read (Elt F) (arg6.view.writes (Elt F) f (bodyRun c i arg1 harg1 arg2 harg2 arg3 harg3 arg4 harg4 arg5 harg5 arg6 harg6 x0 x1 x2 x3 x4).1) y
      = k0_pay1 x0 x1
          (View.ld x2 (Rect.unit (s := S32x128) (k0_off1 ⟨(y 0).val, hy⟩) S1x128.size (k0_off1_inb _)))
          (View.ld x3 (Rect.unit (s := S32x128) (k0_off1 ⟨(y 0).val, hy⟩) S1x128.size (k0_off1_inb _)))
          (View.ld x4 (Rect.unit (s := S32x1) (k0_off2 ⟨(y 0).val, hy⟩) S1x1.size (k0_off2_inb _)))
          (rowIdx y) := by
  have h := read_pb c i arg1 harg1 arg2 harg2 arg3 harg3 arg4 harg4 arg5 harg5 arg6 harg6
    (View.readAt (Elt F) arg1.view (Rect.unit (s := S1024x256) ![0, 0] S1024x256.size inb_S1024x256_S1024x256_0_0).toLoadRect (harg1.unread x0))
    (View.readAt (Elt F) arg2.view (Rect.unit (s := S1024x128) ![0, 0] S1024x128.size inb_S1024x128_S1024x128_0_0).toLoadRect (harg2.unread x1))
    (harg3.unread x2) (harg4.unread x3) (harg5.unread x4) f k0_t1_loop.trips (Nat.le_refl _) y
  rw [dif_pos hy] at h
  unfold bodyRun; dsimp only
  refine h.trans ?_
  unfold tripRow
  simp only [View.readAt_eq_ld, harg1.read_unread, harg2.read_unread, harg3.read_unread, harg4.read_unread, harg5.read_unread,
    View.ld_unit_zero (S := S1024x256) zero2, View.ld_unit_zero (S := S1024x128) zero2]

/-- Row `k` of a 32 x 128 head block as the trip loads it, at column `k'`. -/
theorem ld_row128 (x : Vec F S32x128 .f32) (k : Fin k0_t1_loop.trips) (k' : Fin 128) :
    View.ld x (Rect.unit (s := S32x128) (k0_off1 k) S1x128.size (k0_off1_inb k)) (ValueIdx.ix2 (0 : Fin 1) k')
      = x (ValueIdx.ix2 ⟨k.val, Nat.lt_of_lt_of_eq k.isLt trips_eq⟩ k') := by
  refine congrArg x (funext fun a => Fin.ext ?_)
  match a with
  | ⟨0, _⟩ => show (k0_off1 k) 0 + 1 * 0 = k.val; rw [k0_off1_eq k]; rfl
  | ⟨1, _⟩ => show (k0_off1 k) 1 + 1 * k'.val = k'.val; rw [k0_off1_eq k]; show 0 + 1 * k'.val = k'.val; omega

/-- Row `k` of the 32 x 1 radius-sum block as the trip loads it. -/
theorem ld_row1 (x : Vec F S32x1 .f32) (k : Fin k0_t1_loop.trips) :
    View.ld x (Rect.unit (s := S32x1) (k0_off2 k) S1x1.size (k0_off2_inb k)) (ValueIdx.ix2 (0 : Fin 1) (0 : Fin 1))
      = x (ValueIdx.ix2 ⟨k.val, Nat.lt_of_lt_of_eq k.isLt trips_eq⟩ (0 : Fin 1)) := by
  refine congrArg x (funext fun a => Fin.ext ?_)
  match a with
  | ⟨0, _⟩ => show (k0_off2 k) 0 + 1 * 0 = k.val; rw [k0_off2_eq k]; rfl
  | ⟨1, _⟩ => show (k0_off2 k) 1 + 1 * 0 = 0; rw [k0_off2_eq k]; rfl

end Cert.KernelIdeal.Dist

end
-- ==== Proof.LibSoftplus.lean ====
/-
  softplus and a square of a difference, on the extended reals; general in that nothing here mentions a shape.

  * `softplus x = max x 0 + log1p (exp (-|x|))` with `|x| = max x (-x)`: the usual numerically careful
    spelling (logaddexp x 0), once its not-a-number guard is gone;
  * `cmp_one_self` / `cmp_une_self`: no extended real differs from itself, so the guard "x ≠ x" — ordered in a
    kernel body (`one`), unordered on the host (`une`) — selects its second branch;
  * `softplus_kernel`: the body's spelling (`0 - |x - 0|` under the exponential, the guard `one`) is softplus;
  * `softplus_host`: the host's spelling (`-|x - 0|`, the guard `une`) is softplus;
  * `sq_sub_comm`: `(a - b)² = (b - a)²` for all extended reals, infinities included.
-/
import Idealize.ShloMosaic.PureOps.Ideal
import Idealize.ShloMosaic.PureOps.Ideal.Laws
import Idealize.ShloMosaic.Lib.ValueIdx

noncomputable section

namespace Cert.LibSoftplus

open Idealize.ShloMosaic Idealize.ShloMosaic.ValueIdx

/-- softplus: `max x 0 + log1p (exp (-|x|))`. -/
def softplus (x : EReal) : EReal := max x 0 + Ideal.log1p (Ideal.exp (-(max x (-x))))

/-- No extended real differs from itself: a guard "x ≠ x" never fires. -/
theorem cmp_one_self (x : EReal) : Ideal.cmp .one x x = 0#1 := by simp [Ideal.cmp]
theorem cmp_une_self (x : EReal) : Ideal.cmp .une x x = 0#1 := by simp [Ideal.cmp]

/-- softplus as a kernel body spells it (`0 - |x - 0|` under the exponential). -/
theorem softplus_kernel (x : EReal) :
    Scalar.select (Ideal.cmp .one (x - Ideal.ofBits .f32 0x00000000#32) (x - Ideal.ofBits .f32 0x00000000#32))
      (x + Ideal.ofBits .f32 0x00000000#32)
      (max x (Ideal.ofBits .f32 0x00000000#32) + Ideal.log1p (Ideal.exp (Ideal.ofBits .f32 0x00000000#32
        - max (x - Ideal.ofBits .f32 0x00000000#32) (-(x - Ideal.ofBits .f32 0x00000000#32))))) = softplus x := by
  rw [cmp_one_self, select_zero, Ideal.ofBits_zero_f32, sub_zero, zero_sub]; rfl

/-- softplus as the host spells it (`-|x - 0|` under the exponential). -/
theorem softplus_host (x : EReal) :
    Scalar.select (Ideal.cmp .une (x - Ideal.ofBits .f32 0x00000000#32) (x - Ideal.ofBits .f32 0x00000000#32))
      (x + Ideal.ofBits .f32 0x00000000#32)
      (max x (Ideal.ofBits .f32 0x00000000#32) + Ideal.log1p (Ideal.exp
        (-(max (x - Ideal.ofBits .f32 0x00000000#32) (-(x - Ideal.ofBits .f32 0x00000000#32)))))) = softplus x := by
  rw [cmp_une_self, select_zero, Ideal.ofBits_zero_f32, sub_zero]; rfl

/-- A difference and its reverse have the same square, on all of the extended reals: they are negatives of
    each other unless both operands are the same infinity, and then both differences are `⊥`. -/
theorem sq_sub_comm (a b : EReal) : (a - b) * (a - b) = (b - a) * (b - a) := by
  induction a using EReal.rec with
  | bot =>
    induction b using EReal.rec with
    | bot => rfl
    | coe b => simp
    | top => simp
  | coe a =>
    induction b using EReal.rec with
    | bot => simp
    | coe b =>
      rw [← EReal.coe_sub, ← EReal.coe_sub, ← EReal.coe_mul, ← EReal.coe_mul]
      congr 1; ring
    | top => simp
  | top =>
    induction b using EReal.rec with
    | bot => simp
    | coe b => simp
    | top => rfl

end Cert.LibSoftplus

end
-- ==== Proof.DistSpec.lean ====
/-
  The score both programs compute, on the extended reals. For head row b and entity n, with the entity's centre
  split into a real half u_re and an imaginary half u_im of 128 coordinates each, its radius logits r, and the
  rotated head (p_re, p_im) with radius sum s:

      score (b, n) = (s b + Σ_k softplus (r n k)) - Σ_k sqrt ((u_re n k - p_re b k)² + (u_im n k - p_im b k)²)

  where softplus x = max x 0 + log1p (exp (-|x|)) and |x| = max x (-x). The kernel subtracts the head from the
  entity and the reference the entity from the head; the squares agree, at infinities too (`sq_sub_comm`). Both
  programs also guard softplus with a test "x - 0 ≠ x - 0", which no extended real passes.
-/
import Idealize.ShloMosaic.PureOps.Ideal
import Idealize.ShloMosaic.PureOps.Ideal.Laws
import Idealize.ShloMosaic.Lib.ValueIdx
import proofs.«151731_j42064909697223_2_alg».proof.Proof.LibSoftplus

noncomputable section

open scoped BigOperators

namespace Cert.DistSpec

open Idealize.ShloMosaic Idealize.ShloMosaic.ValueIdx

export Cert.LibSoftplus (softplus softplus_kernel softplus_host sq_sub_comm)

/-- Coordinate `k` of the real half and of the imaginary half of a centre row. -/
abbrev lo (k : Fin 128) : Fin 256 := ⟨k.val, by have := k.isLt; omega⟩
abbrev hi (k : Fin 128) : Fin 256 := ⟨128 + k.val, by have := k.isLt; omega⟩

/-- One entity's score against one head row. -/
def rowScore (e : Fin 256 → EReal) (r pre pim : Fin 128 → EReal) (prs : EReal) : EReal :=
  (prs + ∑ k : Fin 128, softplus (r k))
    - ∑ k : Fin 128, Ideal.sqrt ((e (lo k) - pre k) * (e (lo k) - pre k) + (e (hi k) - pim k) * (e (hi k) - pim k))

/-- The score depends on its rows entry by entry. -/
theorem rowScore_congr {e e' : Fin 256 → EReal} {r r' pre pre' pim pim' : Fin 128 → EReal} {prs prs' : EReal}
    (he : ∀ q, e q = e' q) (hr : ∀ k, r k = r' k) (hpre : ∀ k, pre k = pre' k) (hpim : ∀ k, pim k = pim' k)
    (hprs : prs = prs') : rowScore e r pre pim prs = rowScore e' r' pre' pim' prs' := by
  obtain rfl := funext he; obtain rfl := funext hr; obtain rfl := funext hpre; obtain rfl := funext hpim
  subst hprs; rfl

/-- The whole score array: entry `(b, n)` is entity `n`'s score against head row `b`. -/
def score (a0 : (⟨2, ![50000, 256]⟩ : Shape).Idx → EReal) (a1 : (⟨2, ![50000, 128]⟩ : Shape).Idx → EReal)
    (pre pim : (⟨2, ![32, 128]⟩ : Shape).Idx → EReal) (prs : (⟨2, ![32, 1]⟩ : Shape).Idx → EReal) :
    (⟨2, ![32, 50000]⟩ : Shape).Idx → EReal :=
  fun j => rowScore (fun q => a0 (ix2 (j 1) q)) (fun k => a1 (ix2 (j 1) k)) (fun k => pre (ix2 (j 0) k))
    (fun k => pim (ix2 (j 0) k)) (prs (ix2 (j 0) (0 : Fin 1)))

end Cert.DistSpec

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.DistPay.lean ====
/-
  The row of scores one trip of the kernel's loop stores, read at a column. Column n of the row depends only on
  row n of the two entity blocks: it is that entity's score against the head row the trip loaded — the radius
  sum plus the lane sum of softplus over the entity's 128 radius logits, minus the lane sum of the 128 complex
  distances. The lane sums are kept as columns and transposed to rows, which moves nothing but the index.
-/
import proofs.«151731_j42064909697223_2_alg».proof.Proof.DistSpec
import proofs.«151731_j42064909697223_2_alg».proof.Proof.Gen.KernelIdeal.Skeleton
import proofs.«151731_j42064909697223_2_alg».proof.Proof.LibRowSum
import proofs.«151731_j42064909697223_2_alg».proof.Proof.LibColumn
import Idealize.ShloMosaic.Lib.ValueLayout

set_option maxRecDepth 16384

noncomputable section

open scoped BigOperators

namespace Cert.KernelIdeal.Dist

open Cert.KernelIdeal Cert.KernelIdeal.Gen Idealize.ShloMosaic Idealize.ShloMosaic.ValueIdx Cert.DistSpec

/-- A lane sum of a 1024 x 128 block, kept as a column and transposed to a row, reads at column `n` the sum of
    row `n`. -/
theorem lanes_row (w : FVec Ideal S1024x128 .f32) (n : Fin 1024) :
    transpose S1x1024 [1, 0]
      (shapeCast S1024x1 (multiReduction (F := Ideal) .add [1] S1024 w 0x00000000#32 reduces_S1024x128_S1024 (.inl rfl) rfl)
        shapeCasts_S1024_S1024x1)
      transposes_S1024x1_p1_0_S1x1024 (ix2 (0 : Fin 1) n) = ∑ k : Fin 128, w (ix2 n k) :=
  (transpose_ix2_apply _ _ (0 : Fin 1) n).trans
    ((Cert.LibColumn.shapeCast_a_a1_apply _ _ n (0 : Fin 1)).trans
      (Cert.LibRowSum.multiReduction_add_lanes_apply w _ _ _ _ n))

/-- A head row loaded as 1 x 128, flattened, laid out as a row again and spread over the 1024 entity rows, reads
    at `(n, k)` the loaded row's entry `k`. -/
theorem head_spread (v : Vec Ideal S1x128 .f32) (n : Fin 1024) (k : Fin 128) :
    broadcastTo S1024x128 (shapeCast S1x128 (shapeCast S128 v shapeCasts_S1x128_S128) shapeCasts_S128_S1x128)
      broadcasts_S1x128_S1024x128 (ix2 n k) = v (ix2 (0 : Fin 1) k) :=
  (broadcastTo_1b_ab_apply _ _ n k).trans ((shapeCast_a_1a_apply _ _ (0 : Fin 1) k).trans (shapeCast_1a_a_apply v _ k))

/-- The head's radius sum, loaded as 1 x 1, flattened and extracted, is its one entry. -/
theorem head_scalar (v : Vec Ideal S1x1 .f32) :
    extractAt ![0] (shapeCast S1 v shapeCasts_S1x1_S1) inpos_S1_p0 = v (ix2 (0 : Fin 1) (0 : Fin 1)) := by
  have e : (fun a => (⟨(![0] : Fin 1 → Nat) a, inpos_S1_p0 a⟩ : Fin (S1.size a))) = ix1 (0 : Fin 1) :=
    funext fun a => by match a with | ⟨0, _⟩ => rfl
  unfold extractAt; rw [e]; exact shapeCast_1a_a_apply v _ (0 : Fin 1)

/-- The stored row at column `n`: entity row `n`'s score against the loaded head row. -/
theorem pay_apply (v0 : Vec Ideal S1024x256 .f32) (v3 : Vec Ideal S1024x128 .f32) (v23 v26 : Vec Ideal S1x128 .f32)
    (v29 : Vec Ideal S1x1 .f32) (n : Fin 1024) :
    k0_pay1 (F := Ideal) v0 v3 v23 v26 v29 (ix2 (0 : Fin 1) n)
      = rowScore (fun q => v0 (ix2 n q)) (fun k => v3 (ix2 n k)) (fun k => v23 (ix2 (0 : Fin 1) k))
          (fun k => v26 (ix2 (0 : Fin 1) k)) (v29 (ix2 (0 : Fin 1) (0 : Fin 1))) := by
  unfold k0_pay1 rowScore
  refine (shapeCast_a_1a_apply _ _ (0 : Fin 1) n).trans ?_
  refine (shapeCast_1a_a_apply _ _ n).trans ?_
  refine congrArg₂ (· - ·) (congrArg₂ (· + ·) ?_ ?_) ?_
  · exact head_scalar v29
  · refine (lanes_row _ n).trans (Finset.sum_congr rfl fun k _ => ?_)
    exact softplus_kernel (v3 (ix2 n k))
  · refine (lanes_row _ n).trans (Finset.sum_congr rfl fun k _ => ?_)
    have e1 : (subf (extractStridedSlice S1024x128 ![0, 0] v0 slices_S1024x256_o0_0_S1024x128)
        (broadcastTo S1024x128 (shapeCast S1x128 (shapeCast S128 v23 shapeCasts_S1x128_S128) shapeCasts_S128_S1x128)
          broadcasts_S1x128_S1024x128) : FVec Ideal S1024x128 .f32) (ix2 n k) = v0 (ix2 n (lo k)) - v23 (ix2 (0 : Fin 1) k) :=
      congrArg₂ (· - ·) (slice2_axis1_apply 0 v0 _ n k (lo k) (Nat.zero_add _).symm) (head_spread v23 n k)
    have e2 : (subf (extractStridedSlice S1024x128 ![0, 128] v0 slices_S1024x256_o0_128_S1024x128)
        (broadcastTo S1024x128 (shapeCast S1x128 (shapeCast S128 v26 shapeCasts_S1x128_S128) shapeCasts_S128_S1x128)
          broadcasts_S1x128_S1024x128) : FVec Ideal S1024x128 .f32) (ix2 n k) = v0 (ix2 n (hi k)) - v26 (ix2 (0 : Fin 1) k) :=
      congrArg₂ (· - ·) (slice2_axis1_apply 128 v0 _ n k (hi k) rfl) (head_spread v26 n k)
    exact congrArg Ideal.sqrt (congrArg₂ (· + ·) (congrArg₂ (· * ·) e1 e1) (congrArg₂ (· * ·) e2 e2))

end Cert.KernelIdeal.Dist

end
-- ==== Proof.DistIdeal.lean ====
/-
  The idealized kernel's run, with its result named: every weakly fair execution terminates with the result array
  holding the score array of the arrays the region finds (the two entity tables, and the rotated head the host
  lines before the region computed), and the arguments unchanged.

  At point t the pipeline hands the body rows 1024 t .. of the entity tables in two staging buffers — at the last
  point only 848 rows are inside the tables and the rest of each buffer holds words nothing names —, the three
  head blocks whole, and the result's buffer at anything. The body stores 32 rows of 1024 scores; column n of each
  depends only on row n of the entity blocks, so the columns inside the array are the score array's entries
  whatever the other rows held, and those are the columns the write-back moves. The 49 blocks of columns cover the
  array.
-/
import proofs.«151731_j42064909697223_2_alg».proof.Proof.DistGeom
import proofs.«151731_j42064909697223_2_alg».proof.Proof.DistRows
import proofs.«151731_j42064909697223_2_alg».proof.Proof.DistPay

set_option maxRecDepth 16384

noncomputable section

namespace Cert.KernelIdeal.Dist

open Cert.KernelIdeal Cert.KernelIdeal.Gen Cert.DistSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The score array of the arrays as the region finds them. -/
def scoreArr (c : Dev nD) : Buf (Elt Ideal) ((c : Thread nD τ).loc main_v47) :=
  score (V m c main_arg0) (V m c main_arg1) (V m c main_v40) (V m c main_v43) (V m c main_v46)

/-! ## The proof data -/

/-- After the body at point `t`: the two entity windows' buffers hold their blocks (zero past the tables' end,
    where nothing is stated), the head windows' theirs, the result's the score array's block (zero past the
    array's end). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => iblk m c 4 t
    | ⟨5, _⟩ => win0_5.fill (grid0.coords t) (fun _ => (0 : EReal)) ((win0_5.blk t).view.read (Elt Ideal) (scoreArr m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => (0 : EReal)) (iblk m c 0 t) := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = win0_5.fill (grid0.coords t) (fun _ => (0 : EReal)) ((win0_5.blk t).view.read (Elt Ideal) (scoreArr m c)) := by
  dsimp only [dats]

/-! ## What the body finds -/

/-- The entity windows are fetched at every point: the block inside the table, `d` past its end. -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf; rw [A_eq m c 0]; rfl
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf; rw [A_eq m c 1]; rfl
/-- The head windows hold their blocks at every point, fetched there or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The result's buffer, written back at every point, is found at anything. -/
theorem before0_5 (c : Dev nD) (t : Fin cfg0.N) (d) : (dats m 0 c).before 5 t d = d := by
  unfold Dat.before
  rw [if_neg (by rw [fetch0_5 t]; exact Bool.false_ne_true)]
  split
  · rfl
  · dsimp only; rw [if_pos (flush0_5 _)]

/-! ## What the body leaves in the result's buffer, on the columns inside the array -/

/-- Row `b`, column `n` (inside the array at point `t`) of the result's buffer after the body: entity
    `1024 t + n`'s score against head row `b`. -/
theorem out_at (c : Dev nD) (t : Fin cfg0.N) (d0 : S1024x256.Idx → EReal) (d1 : S1024x128.Idx → EReal) (arg1 : Memref sig .tc .vmem S1024x256 .f32) (harg1 : arg1.IsWhole)
    (arg2 : Memref sig .tc .vmem S1024x128 .f32) (harg2 : arg2.IsWhole)
    (arg3 : Memref sig .tc .vmem S32x128 .f32) (harg3 : arg3.IsWhole)
    (arg4 : Memref sig .tc .vmem S32x128 .f32) (harg4 : arg4.IsWhole)
    (arg5 : Memref sig .tc .vmem S32x1 .f32) (harg5 : arg5.IsWhole)
    (arg6 : Memref sig .tc .vmem S32x1024 .f32) (harg6 : arg6.IsWhole)
    (f : BufTy.Contents (Elt Ideal) arg6.view.ty) (b : Fin 32) (n : Fin 1024) (hn : n.val < inside t) :
    arg6.view.read (Elt Ideal) (arg6.view.writes (Elt Ideal) f
        (bodyRun (F := Ideal) c (grid0.coords t) arg1 harg1 arg2 harg2 arg3 harg3 arg4 harg4 arg5 harg5 arg6 harg6 (win0_0.fill (grid0.coords t) d0 (iblk m c 0 t))
          (win0_1.fill (grid0.coords t) d1 (iblk m c 1 t)) (iblk m c 2 t) (iblk m c 3 t) (iblk m c 4 t)).1) (ix2 b n)
      = rowScore (fun q => (V m c main_arg0 : S50000x256.Idx → EReal) (ix2 ⟨1024 * t.val + n.val, row_lt t n.val hn⟩ q))
          (fun k => (V m c main_arg1 : S50000x128.Idx → EReal) (ix2 ⟨1024 * t.val + n.val, row_lt t n.val hn⟩ k))
          (fun k => (V m c main_v40 : S32x128.Idx → EReal) (ix2 b k))
          (fun k => (V m c main_v43 : S32x128.Idx → EReal) (ix2 b k))
          ((V m c main_v46 : S32x1.Idx → EReal) (ix2 b (0 : Fin 1))) := by
  have hb : ((ix2 b n : S32x1024.Idx) 0).val < k0_t1_loop.trips := by rw [trips_eq]; exact b.isLt
  have hri : rowIdx (ix2 b n) = ix2 (0 : Fin 1) n :=
    funext fun a => Fin.ext (by match a with | ⟨0, _⟩ => rfl | ⟨1, _⟩ => rfl)
  refine (bodyRun_read c (grid0.coords t) arg1 harg1 arg2 harg2 arg3 harg3 arg4 harg4 arg5 harg5 arg6 harg6 _ _ _ _ _ f (ix2 b n) hb).trans ?_
  rw [hri]
  exact (pay_apply _ _ _ _ _ n).trans (rowScore_congr (fun q => centre_at m c t d0 n q hn) (fun k => radius_at m c t d1 n k hn)
    (fun k => (ld_row128 _ ⟨b.val, hb⟩ k).trans (head_re_at m c t b k))
    (fun k => (ld_row128 _ ⟨b.val, hb⟩ k).trans (head_im_at m c t b k))
    ((ld_row1 _ ⟨b.val, hb⟩).trans (head_rs_at m c t b)))

/-- The part of the result's buffer the write-back moves is the score array's block at the point. -/
theorem out_cut (c : Dev nD) (t : Fin cfg0.N) (d0 : S1024x256.Idx → EReal) (d1 : S1024x128.Idx → EReal) (arg1 : Memref sig .tc .vmem S1024x256 .f32) (harg1 : arg1.IsWhole)
    (arg2 : Memref sig .tc .vmem S1024x128 .f32) (harg2 : arg2.IsWhole)
    (arg3 : Memref sig .tc .vmem S32x128 .f32) (harg3 : arg3.IsWhole)
    (arg4 : Memref sig .tc .vmem S32x128 .f32) (harg4 : arg4.IsWhole)
    (arg5 : Memref sig .tc .vmem S32x1 .f32) (harg5 : arg5.IsWhole)
    (arg6 : Memref sig .tc .vmem S32x1024 .f32) (harg6 : arg6.IsWhole)
    (f : BufTy.Contents (Elt Ideal) arg6.view.ty) :
    win0_5.cut (grid0.coords t) (arg6.view.read (Elt Ideal) (arg6.view.writes (Elt Ideal) f
        (bodyRun (F := Ideal) c (grid0.coords t) arg1 harg1 arg2 harg2 arg3 harg3 arg4 harg4 arg5 harg5 arg6 harg6 (win0_0.fill (grid0.coords t) d0 (iblk m c 0 t))
          (win0_1.fill (grid0.coords t) d1 (iblk m c 1 t)) (iblk m c 2 t) (iblk m c 3 t) (iblk m c 4 t)).1))
      = (win0_5.blk t).view.read (Elt Ideal) (scoreArr m c) := by
  funext j
  have hn : (j 1).val < inside t := lt_of_lt_of_eq (j 1).isLt (w5_x1 t)
  have hb : (j 0).val < 32 := lt_of_lt_of_eq (j 0).isLt (w5_x0 t)
  have hn' : (j 1).val < 1024 := lt_of_lt_of_le hn (Nat.min_le_left _ _)
  have hx : win0_5.xinj (grid0.coords t) j = ix2 (⟨(j 0).val, hb⟩ : Fin 32) (⟨(j 1).val, hn'⟩ : Fin 1024) :=
    funext fun a => Fin.ext (by match a with | ⟨0, _⟩ => rfl | ⟨1, _⟩ => rfl)
  show arg6.view.read (Elt Ideal) _ (win0_5.xinj (grid0.coords t) j) = scoreArr m c ((win0_5.blk t).view.emb j)
  rw [hx, out_at m c t d0 d1 arg1 harg1 arg2 harg2 arg3 harg3 arg4 harg4 arg5 harg5 arg6 harg6 f ⟨(j 0).val, hb⟩ ⟨(j 1).val, hn'⟩ hn]
  unfold scoreArr score
  have h1 : ∀ (α : Nat) (q : Fin α), (ix2 (⟨1024 * t.val + (j 1).val, row_lt t _ hn⟩ : Fin 50000) q : (⟨2, ![50000, α]⟩ : Shape).Idx)
      = ix2 (((win0_5.blk t).view.emb j) 1) q := fun α q => funext fun a => Fin.ext (by
    match a with
    | ⟨0, _⟩ => show 1024 * t.val + (j 1).val = win0_5.index t 1 * 1024 + 1 * (j 1).val; rw [w5_i1 t]; omega
    | ⟨1, _⟩ => rfl)
  have h0 : ∀ (α : Nat) (q : Fin α), (ix2 (⟨(j 0).val, hb⟩ : Fin 32) q : (⟨2, ![32, α]⟩ : Shape).Idx)
      = ix2 (((win0_5.blk t).view.emb j) 0) q := fun α q => funext fun a => Fin.ext (by
    match a with
    | ⟨0, _⟩ => show (j 0).val = win0_5.index t 0 * 32 + 1 * (j 0).val; rw [w5_i0 t]; omega
    | ⟨1, _⟩ => rfl)
  exact rowScore_congr (fun q => congrArg _ (h1 256 q)) (fun k => congrArg _ (h1 128 k)) (fun k => congrArg _ (h0 128 k))
    (fun k => congrArg _ (h0 128 k)) (congrArg _ (h0 1 (0 : Fin 1)))

/-! ## The body obligation -/

set_option maxHeartbeats 8000000 in
/-- The body at any point: the windows' buffers arrive as `before0_W` say, the run applies, and what it leaves
    is what each window's obligation states — the loose windows' on the part their transfers move. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := Ideal)) Variants.none c none) Set.univ (bodyAt0 t) (fun _ =>
      iprop((dats m 0 c).Φ t.succ ∗ (dats m 0 c).owesAt () t.succ
      ∗ (∃ d, owns (c : Thread nD τ) (st0_0 t) fullShare (win0_0.fill (grid0.coords t) d (win0_0.cut (grid0.coords t) ((dats m 0 c).after 0 t))))
      ∗ (∃ d, owns (c : Thread nD τ) (st0_1 t) fullShare (win0_1.fill (grid0.coords t) d (win0_1.cut (grid0.coords t) ((dats m 0 c).after 1 t))))
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ (∃ d, owns (c : Thread nD τ) (st0_5 t) fullShare (win0_5.fill (grid0.coords t) d (win0_5.cut (grid0.coords t) ((dats m 0 c).after 5 t)))))) := by
  unfold bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4, before0_5 m c t d5]
  iapply ((bodyRun (F := Ideal) c (grid0.coords t) _ _ _ _ _ _ _ _ _ _ _ _ (win0_0.fill (grid0.coords t) d0 (iblk m c 0 t))
    (win0_1.fill (grid0.coords t) d1 (iblk m c 1 t)) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  iexists _
  unfold owns; iexists _; isplitr
  swap; · iexact H5
  ipureintro
  refine (win0_5.fill_cut (grid0.coords t) _).symm.trans (congrArg (win0_5.fill (grid0.coords t) _) ?_)
  exact out_cut m c t d0 d1 _ _ _ _ _ _ _ _ _ _ _ _ e5

/-- The library's body obligation in its loose form. -/
theorem body_obligation (c : Dev nD) : BodyObligationLoose (dats m 0 c) (defs₀ (F := Ideal)) Variants.none () Set.univ := fun t => by
  rw [bigSep_W0, bigSep_W0]
  exact sound_body m c t

/-! ## The run, and the result array -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- What the write-back at point `t` writes: the score array's block. -/
theorem flushed5 (c : Dev nD) (t : Fin cfg0.N) :
    (dats m 0 c).flushed 5 t = (win0_5.blk t).view.read (Elt Ideal) (scoreArr m c) := by
  show win0_5.cut (grid0.coords t) ((dats m 0 c).after 5 t) = _
  rw [after0_5]; exact win0_5.cut_fill _ _ _

/-- Every index of the result array is in the block of the point its column falls in. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hi : (i 1).val < 50000 := (i 1).isLt
  have h0 : (i 0).val < 32 := (i 0).isLt
  have hT : (i 1).val / 1024 < 49 := by omega
  obtain ⟨T, hTv⟩ : ∃ T : Fin cfg0.N, T.val = (i 1).val / 1024 := ⟨⟨_, hT⟩, rfl⟩
  refine ⟨T, flush0_5 _, ?_⟩
  show i ∈ ((View.whole main_v47).slice (win0_5.rect T)).set
  rw [View.set_slice_whole, Rect.mem_set_unit]
  intro a
  match a with
  | ⟨0, _⟩ =>
    show win0_5.index T 0 * 32 ≤ (i 0).val ∧ (i 0).val < win0_5.index T 0 * 32 + win0_5.xsize (grid0.coords T) 0
    rw [w5_i0 T, w5_x0 T]; omega
  | ⟨1, _⟩ =>
    show win0_5.index T 1 * 1024 ≤ (i 1).val ∧ (i 1).val < win0_5.index T 1 * 1024 + win0_5.xsize (grid0.coords T) 1
    rw [w5_i1 T, w5_x1 T]
    show T.val * 1024 ≤ (i 1).val ∧ (i 1).val < T.val * 1024 + min 1024 (50000 - 1024 * T.val)
    omega

/-- After the last write-back the result array holds the score array. -/
theorem final5 (c : Dev nD) : (dats m 0 c).arrAt 5 cfg0.N = scoreArr m c :=
  (dats m 0 c).arrAt_eq_of_cover 5 (scoreArr m c) (fun t _ => flushed5 m c t) (cover5 c)

/-- The idealized kernel's run with its result named. -/
theorem kernel_run : θ_run defs (onTc (τ := τ) (main (F := Ideal))) ⟨m, fun _ => 0, ρ⟩ (fun r => ∀ c : Dev nD,
      r.2.mem ((c.tc : Thread nD τ).loc main_v47) = scoreArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Dist

end
-- ==== Proof.DistHostRe.lean ====
/-
  The rotated head, as the kernel's host lines compute it before the region, is the reference's. Both programs
  gather the head entity's centre and radius rows and the relation's phase and radius rows at the same clamped
  indices, rotate the centre by the phase, apply softplus to the two radius rows, add them and sum over the
  lanes: the same operations on the same arguments, in the same order. Nothing is opened; the two terms are one.
-/
import proofs.«151731_j42064909697223_2_alg».proof.Proof.Gen.KernelIdeal.Frame
import proofs.«151731_j42064909697223_2_alg».proof.Proof.Gen.ReferenceIdeal.Read
import Idealize.ShloMosaic.Lib.StableHlo.Run

set_option maxRecDepth 16384

noncomputable section

namespace Cert.KernelIdeal.Dist

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

set_option maxHeartbeats 16000000 in
/-- The head's real part. -/
theorem V_head_re (c : Dev nD) :
    (V m c main_v40 : S32x128.Idx → EReal)
      = Cert.ReferenceIdeal.Read.val_main_v43 (F := Ideal) (m ((c.tc : Thread nD τ).loc main_arg0))
          (m ((c.tc : Thread nD τ).loc main_arg2)) (m ((c.tc : Thread nD τ).loc main_arg4)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Dist

end
-- ==== Proof.DistHostIm.lean ====
/-
  The rotated head, as the kernel's host lines compute it before the region, is the reference's. Both programs
  gather the head entity's centre and radius rows and the relation's phase and radius rows at the same clamped
  indices, rotate the centre by the phase, apply softplus to the two radius rows, add them and sum over the
  lanes: the same operations on the same arguments, in the same order. Nothing is opened; the two terms are one.
-/
import proofs.«151731_j42064909697223_2_alg».proof.Proof.Gen.KernelIdeal.Frame
import proofs.«151731_j42064909697223_2_alg».proof.Proof.Gen.ReferenceIdeal.Read
import Idealize.ShloMosaic.Lib.StableHlo.Run

set_option maxRecDepth 16384

noncomputable section

namespace Cert.KernelIdeal.Dist

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

set_option maxHeartbeats 16000000 in
/-- The head's imaginary part. -/
theorem V_head_im (c : Dev nD) :
    (V m c main_v43 : S32x128.Idx → EReal)
      = Cert.ReferenceIdeal.Read.val_main_v46 (F := Ideal) (m ((c.tc : Thread nD τ).loc main_arg0))
          (m ((c.tc : Thread nD τ).loc main_arg2)) (m ((c.tc : Thread nD τ).loc main_arg4)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Dist

end
-- ==== Proof.DistHostRs.lean ====
/-
  The rotated head, as the kernel's host lines compute it before the region, is the reference's. Both programs
  gather the head entity's centre and radius rows and the relation's phase and radius rows at the same clamped
  indices, rotate the centre by the phase, apply softplus to the two radius rows, add them and sum over the
  lanes: the same operations on the same arguments, in the same order. Nothing is opened; the two terms are one.
-/
import proofs.«151731_j42064909697223_2_alg».proof.Proof.Gen.KernelIdeal.Frame
import proofs.«151731_j42064909697223_2_alg».proof.Proof.Gen.ReferenceIdeal.Read
import Idealize.ShloMosaic.Lib.StableHlo.Run

set_option maxRecDepth 16384

noncomputable section

namespace Cert.KernelIdeal.Dist

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

set_option maxHeartbeats 16000000 in
/-- The head's radius sum, as a column. -/
theorem V_head_rs (c : Dev nD) :
    (V m c main_v46 : S32x1.Idx → EReal)
      = Cert.ReferenceIdeal.Read.val_main_v64 (F := Ideal) (m ((c.tc : Thread nD τ).loc main_arg1))
          (m ((c.tc : Thread nD τ).loc main_arg3)) (m ((c.tc : Thread nD τ).loc main_arg4)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Dist

end
-- ==== Proof.DistRef.lean ====
/-
  The reference computes the score array. Its head stages — the rotated head's real part, imaginary part and
  radius sum, each a function of the argument arrays through four row gathers — are left as they are: the
  kernel's host prefix computes the same three arrays by the same operations. What is read here is everything
  after them: the two halves of the entity centres and the head rows broadcast to 32 x 50000 x 128, their
  differences squared and added, the square roots summed over the last axis; softplus of the whole radius table
  summed over its lanes; and the two sums combined. The reference subtracts the entity from the head where the
  score is written with the head subtracted from the entity: the squares agree.
-/
import proofs.«151731_j42064909697223_2_alg».proof.Proof.DistSpec
import proofs.«151731_j42064909697223_2_alg».proof.Proof.Gen.ReferenceIdeal.Read

set_option maxRecDepth 16384

noncomputable section

open scoped BigOperators

namespace Cert.ReferenceIdeal.Dist

open Cert.ReferenceIdeal Cert.ReferenceIdeal.Gen Cert.ReferenceIdeal.Read
open Idealize.ShloMosaic Idealize.ShloMosaic.ValueIdx Cert.DistSpec

/-- The reference's softplus of the radius table, entry by entry. -/
theorem ref_softplus (x1 : (⟨S50000x128, .f32⟩ : BufTy).Contents (Elt Ideal)) (i : S50000x128.Idx) :
    val_main_v2 (F := Ideal) x1 i = softplus (x1 i) := by
  simp only [val_main_v2_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  exact softplus_host (x1 i)

/-- One complex distance of the reference's 32 x 50000 x 128 array. -/
theorem ref_dist (x0 : (⟨S50000x256, .f32⟩ : BufTy).Contents (Elt Ideal)) (x2 : (⟨S500x128, .f32⟩ : BufTy).Contents (Elt Ideal))
    (x4 : (⟨S32x3, .i32⟩ : BufTy).Contents (Elt Ideal)) (b : Fin 32) (n : Fin 50000) (k : Fin 128) :
    val_main_v61 (F := Ideal) x0 x2 x4 (idx_main_v62 (ix2 b n) k)
      = Ideal.sqrt ((x0 (ix2 n (lo k)) - val_main_v43 (F := Ideal) x0 x2 x4 (ix2 b k)) * (x0 (ix2 n (lo k)) - val_main_v43 (F := Ideal) x0 x2 x4 (ix2 b k))
          + (x0 (ix2 n (hi k)) - val_main_v46 (F := Ideal) x0 x2 x4 (ix2 b k)) * (x0 (ix2 n (hi k)) - val_main_v46 (F := Ideal) x0 x2 x4 (ix2 b k))) := by
  have h43 : idx_main_v48 (idx_main_v50 (idx_main_v62 (ix2 b n) k)) = ix2 b k :=
    funext fun a => Fin.ext (by match a with | ⟨0, _⟩ => rfl | ⟨1, _⟩ => rfl)
  have h46 : idx_main_v53 (idx_main_v55 (idx_main_v62 (ix2 b n) k)) = ix2 b k :=
    funext fun a => Fin.ext (by match a with | ⟨0, _⟩ => rfl | ⟨1, _⟩ => rfl)
  have h0 : idx_main_v0 (idx_main_v49 (idx_main_v51 (idx_main_v62 (ix2 b n) k))) = ix2 n (lo k) :=
    funext fun a => Fin.ext (by match a with | ⟨0, _⟩ => rfl | ⟨1, _⟩ => rfl)
  have h1 : idx_main_v1 (idx_main_v54 (idx_main_v56 (idx_main_v62 (ix2 b n) k))) = ix2 n (hi k) :=
    funext fun a => Fin.ext (by match a with | ⟨0, _⟩ => rfl | ⟨1, _⟩ => rfl)
  rw [val_main_v61_apply, val_main_v60_apply, val_main_v58_apply, val_main_v59_apply, val_main_v52_apply, val_main_v57_apply,
    val_main_v50_apply, val_main_v51_apply, val_main_v55_apply, val_main_v56_apply, val_main_v48_apply, val_main_v49_apply,
    val_main_v53_apply, val_main_v54_apply, val_main_v0_apply, val_main_v1_apply, h43, h46, h0, h1]
  rw [sq_sub_comm (x0 (ix2 n (lo k))) (val_main_v43 (F := Ideal) x0 x2 x4 (ix2 b k)),
    sq_sub_comm (x0 (ix2 n (hi k))) (val_main_v46 (F := Ideal) x0 x2 x4 (ix2 b k))]
  rfl

/-- The reference's result is the score array of its own head stages. -/
theorem ref_eq (x0 : (⟨S50000x256, .f32⟩ : BufTy).Contents (Elt Ideal)) (x1 : (⟨S50000x128, .f32⟩ : BufTy).Contents (Elt Ideal))
    (x2 x3 : (⟨S500x128, .f32⟩ : BufTy).Contents (Elt Ideal)) (x4 : (⟨S32x3, .i32⟩ : BufTy).Contents (Elt Ideal)) :
    val_main_v70 (F := Ideal) x0 x1 x2 x3 x4
      = score x0 x1 (val_main_v43 (F := Ideal) x0 x2 x4) (val_main_v46 (F := Ideal) x0 x2 x4) (val_main_v64 (F := Ideal) x1 x3 x4) := by
  funext j
  obtain ⟨b, n, rfl⟩ : ∃ (b : Fin 32) (n : Fin 50000), j = ix2 b n := ⟨j 0, j 1, eq_ix2 j⟩
  rw [val_main_v70_apply, val_main_v69_apply, val_main_v67_apply, val_main_v68_apply, val_main_v66_apply, val_main_v65_apply,
    val_main_v62_apply]
  unfold score rowScore
  refine congrArg₂ (· - ·) (congrArg₂ (· + ·) ?_ ?_) ?_
  · exact congrArg (val_main_v64 (F := Ideal) x1 x3 x4) (funext fun a => Fin.ext (by match a with | ⟨0, _⟩ => rfl | ⟨1, _⟩ => rfl))
  · rw [val_main_cst_8_apply, Ideal.ofBits_def, Ideal.ofBits_zero_f32, zero_add]
    refine Finset.sum_congr rfl fun k _ => ?_
    rw [ref_softplus]
    exact congrArg (fun i => softplus (x1 i)) (funext fun a => Fin.ext (by match a with | ⟨0, _⟩ => rfl | ⟨1, _⟩ => rfl))
  · rw [val_main_cst_apply, Ideal.ofBits_def, Ideal.ofBits_zero_f32, zero_add]
    exact Finset.sum_congr rfl fun k _ => ref_dist x0 x2 x4 b n k

end Cert.ReferenceIdeal.Dist

end
-- ==== Proof.lean ====
/-
  A knowledge-graph scoring kernel against its reference, on the extended reals.

  For each of 32 head rows b and each of 50000 entities n both programs compute

      score (b, n) = (s b + Σ_k softplus (ρ n k)) - Σ_k sqrt ((u_re n k - p_re b k)² + (u_im n k - p_im b k)²)

  where ρ n are the entity's 128 radius logits, u_re n and u_im n the two halves of its 256 centre coordinates, and
  (p_re, p_im, s) the head entity's centre rotated by the relation's phase and the lane sum of the softplus of the
  head's and the relation's radii — computed by the same host operations in both programs. The kernel tiles the
  entities in 49 blocks of 1024 (the last holds 848), loops over the 32 head rows inside each block, and subtracts
  the head from the entity where the reference subtracts the entity from the head: the squares agree. No
  finiteness is used: every law that joins the two sides holds at the infinities too.

  The word-level kernel's frame needs nothing of the values: its body runs from any contents of its staging
  buffers. The idealized kernel's run names its result array; the reference's run is read one operation at a time.
-/
import proofs.«151731_j42064909697223_2_alg».proof.Defs
import proofs.«151731_j42064909697223_2_alg».proof.Proof.Gen.Kernel
import proofs.«151731_j42064909697223_2_alg».proof.Proof.Gen.KernelIdeal
import proofs.«151731_j42064909697223_2_alg».proof.Proof.Gen.ReferenceIdeal
import proofs.«151731_j42064909697223_2_alg».proof.Proof.Gen.Pre_finite_inputs
import proofs.«151731_j42064909697223_2_alg».proof.Proof.Gen.ReferenceIdeal.Run
import proofs.«151731_j42064909697223_2_alg».proof.Proof.Gen.ReferenceIdeal.Read
import proofs.«151731_j42064909697223_2_alg».proof.Proof.DistFrameBits
import proofs.«151731_j42064909697223_2_alg».proof.Proof.DistIdeal
import proofs.«151731_j42064909697223_2_alg».proof.Proof.DistHostRe
import proofs.«151731_j42064909697223_2_alg».proof.Proof.DistHostIm
import proofs.«151731_j42064909697223_2_alg».proof.Proof.DistHostRs
import proofs.«151731_j42064909697223_2_alg».proof.Proof.DistRef
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Dist.frame (F := Bits) m ρ

/-- So does the idealized kernel: its run with the result named, the result dropped. -/
theorem frame_kernelIdeal : Cert.frame_KernelIdeal := fun m ρ _ =>
  (θ_run Cert.KernelIdeal.defs _ _).mono (fun _ h c => (h c).2) (Cert.KernelIdeal.Dist.kernel_run m ρ)

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the score array of those arguments. -/
theorem algebraic : Cert.algebraic_KernelIdeal_ReferenceIdeal := by
  intro m ρ m' ρ' _ hagree
  refine ⟨fun c => Cert.KernelIdeal.Dist.scoreArr m c, Cert.KernelIdeal.Dist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.ReferenceIdeal.Dist.ref_eq, (hagree c).1, (hagree c).2.1, (hagree c).2.2.1,
    (hagree c).2.2.2.1, (hagree c).2.2.2.2]
  show _ = Cert.KernelIdeal.Dist.scoreArr m c
  unfold Cert.KernelIdeal.Dist.scoreArr
  rw [Cert.KernelIdeal.Dist.V_head_re, Cert.KernelIdeal.Dist.V_head_im, Cert.KernelIdeal.Dist.V_head_rs,
    Cert.KernelIdeal.Gen.V_main_arg0, Cert.KernelIdeal.Gen.V_main_arg1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
